-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v140)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v140) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S64x1 .f32) (main_arg10 : FVec F S1 .f32) (main_v33 : IVec S_ 1) : IVec S_ 1 :=
  let main_v34 : FVec F S64x1 .f32 := Host.absf main_arg9
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x1 .f32) (main_arg10 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x1 .f32) (main_arg10 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x64 : Shape := ⟨2, ![100000, 64]⟩
abbrev S4000x128 : Shape := ⟨2, ![4000, 128]⟩
abbrev S4000x64 : Shape := ⟨2, ![4000, 64]⟩
abbrev S1600000x64 : Shape := ⟨2, ![1600000, 64]⟩
abbrev S100000x1 : Shape := ⟨2, ![100000, 1]⟩
abbrev S1x64 : Shape := ⟨2, ![1, 64]⟩
abbrev S1024x64 : Shape := ⟨2, ![1024, 64]⟩
abbrev S1024 : Shape := ⟨1, ![1024]⟩
abbrev S1024x1 : Shape := ⟨2, ![1024, 1]⟩
abbrev S1x1 : Shape := ⟨2, ![1, 1]⟩

abbrev nBuf : Space → Nat
  | .hbm => 180
  | .vmem => 30
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x1, .f32⟩
  | 10 => ⟨S1, .f32⟩
  | 11 => ⟨S1x1600000, .i32⟩
  | 12 => ⟨S1600000, .i32⟩
  | 13 => ⟨S1x1600000, .i32⟩
  | 14 => ⟨S1600000, .i32⟩
  | 15 => ⟨S_, .f32⟩
  | 16 => ⟨S1600000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S100000, .f32⟩
  | 23 => ⟨S100000, .f32⟩
  | 24 => ⟨S100000, .f32⟩
  | 25 => ⟨S100000x128, .bf16⟩
  | 26 => ⟨S128x64, .bf16⟩
  | 27 => ⟨S100000x64, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x64, .f32⟩
  | 56 => ⟨S1600000x1, .f32⟩
  | 57 => ⟨S1600000x64, .f32⟩
  | 58 => ⟨S1600000x64, .f32⟩
  | 59 => ⟨S_, .f32⟩
  | 60 => ⟨S100000x64, .f32⟩
  | 61 => ⟨S1600000x1, .i32⟩
  | 62 => ⟨S100000x64, .f32⟩
  | 63 => ⟨S100000, .f32⟩
  | 64 => ⟨S100000x1, .f32⟩
  | 65 => ⟨S100000x64, .f32⟩
  | 66 => ⟨S100000x64, .f32⟩
  | 67 => ⟨S100000x64, .f32⟩
  | 68 => ⟨S1x64, .f32⟩
  | 69 => ⟨S100000x64, .f32⟩
  | 70 => ⟨S100000x64, .bf16⟩
  | 71 => ⟨S64x64, .bf16⟩
  | 72 => ⟨S100000x64, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000, .f32⟩
  | 91 => ⟨S1600000, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000x64, .f32⟩
  | 101 => ⟨S1600000x1, .f32⟩
  | 102 => ⟨S1600000x64, .f32⟩
  | 103 => ⟨S1600000x64, .f32⟩
  | 104 => ⟨S_, .f32⟩
  | 105 => ⟨S100000x64, .f32⟩
  | 106 => ⟨S1600000x1, .i32⟩
  | 107 => ⟨S100000x64, .f32⟩
  | 108 => ⟨S100000, .f32⟩
  | 109 => ⟨S100000x1, .f32⟩
  | 110 => ⟨S100000x64, .f32⟩
  | 111 => ⟨S100000x64, .f32⟩
  | 112 => ⟨S100000x64, .f32⟩
  | 113 => ⟨S1x64, .f32⟩
  | 114 => ⟨S100000x64, .f32⟩
  | 115 => ⟨S100000x64, .bf16⟩
  | 116 => ⟨S64x64, .bf16⟩
  | 117 => ⟨S100000x64, .f32⟩
  | 118 => ⟨S_, .i32⟩
  | 119 => ⟨S1600000, .i32⟩
  | 120 => ⟨S1600000, .i1⟩
  | 121 => ⟨S_, .i32⟩
  | 122 => ⟨S1600000, .i32⟩
  | 123 => ⟨S1600000, .i32⟩
  | 124 => ⟨S1600000, .i32⟩
  | 125 => ⟨S1600000x1, .i32⟩
  | 126 => ⟨S1600000, .f32⟩
  | 127 => ⟨S_, .i32⟩
  | _ => ⟨S100000x128, .f32⟩

abbrev hbmTy0_1 (i : Nat) : BufTy := match i % 128 with
  | 0 => ⟨S1600000, .i32⟩
  | 1 => ⟨S1600000, .i1⟩
  | 2 => ⟨S_, .i32⟩
  | 3 => ⟨S1600000, .i32⟩
  | 4 => ⟨S1600000, .i32⟩
  | 5 => ⟨S1600000, .i32⟩
  | 6 => ⟨S1600000x1, .i32⟩
  | 7 => ⟨S1600000, .f32⟩
  | 8 => ⟨S1600000, .f32⟩
  | 9 => ⟨S_, .i32⟩
  | 10 => ⟨S1600000, .i32⟩
  | 11 => ⟨S1600000, .i1⟩
  | 12 => ⟨S_, .i32⟩
  | 13 => ⟨S1600000, .i32⟩
  | 14 => ⟨S1600000, .i32⟩
  | 15 => ⟨S1600000, .i32⟩
  | 16 => ⟨S1600000x1, .i32⟩
  | 17 => ⟨S1600000x64, .f32⟩
  | 18 => ⟨S1600000x1, .f32⟩
  | 19 => ⟨S1600000x64, .f32⟩
  | 20 => ⟨S1600000x64, .f32⟩
  | 21 => ⟨S_, .f32⟩
  | 22 => ⟨S100000x64, .f32⟩
  | 23 => ⟨S1600000x1, .i32⟩
  | 24 => ⟨S100000x64, .f32⟩
  | 25 => ⟨S100000, .f32⟩
  | 26 => ⟨S100000x1, .f32⟩
  | 27 => ⟨S100000x64, .f32⟩
  | 28 => ⟨S100000x64, .f32⟩
  | 29 => ⟨S100000x64, .f32⟩
  | 30 => ⟨S1x64, .f32⟩
  | 31 => ⟨S100000x64, .f32⟩
  | 32 => ⟨S_, .f32⟩
  | 33 => ⟨S1024x64, .f32⟩
  | 34 => ⟨S100000x1, .i32⟩
  | 35 => ⟨S1024x64, .f32⟩
  | 36 => ⟨S_, .f32⟩
  | 37 => ⟨S100000, .f32⟩
  | 38 => ⟨S_, .f32⟩
  | 39 => ⟨S1024, .f32⟩
  | 40 => ⟨S100000x1, .i32⟩
  | 41 => ⟨S1024, .f32⟩
  | 42 => ⟨S_, .f32⟩
  | 43 => ⟨S1024, .f32⟩
  | 44 => ⟨S1024, .f32⟩
  | 45 => ⟨S1024x1, .f32⟩
  | 46 => ⟨S1024x64, .f32⟩
  | 47 => ⟨S1024x64, .f32⟩
  | 48 => ⟨S1024x1, .f32⟩
  | 49 => ⟨S1x1, .f32⟩
  | 50 => ⟨S1024x1, .f32⟩
  | 51 => ⟨S1024x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4000x128, .bf16⟩
  | .local _ .vmem, ⟨1, _⟩ => ⟨S4000x128, .bf16⟩
  | .local _ .vmem, ⟨2, _⟩ => ⟨S128x64, .bf16⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S1x64, .f32⟩
  | .local _ .vmem, ⟨8, _⟩ => ⟨S4000x64, .f32⟩
  | .local _ .vmem, ⟨9, _⟩ => ⟨S4000x64, .f32⟩
  | .local _ .vmem, ⟨10, _⟩ => ⟨S4000x64, .bf16⟩
  | .local _ .vmem, ⟨11, _⟩ => ⟨S4000x64, .bf16⟩
  | .local _ .vmem, ⟨12, _⟩ => ⟨S64x64, .bf16⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S1x64, .f32⟩
  | .local _ .vmem, ⟨18, _⟩ => ⟨S4000x64, .f32⟩
  | .local _ .vmem, ⟨19, _⟩ => ⟨S4000x64, .f32⟩
  | .local _ .vmem, ⟨20, _⟩ => ⟨S4000x64, .bf16⟩
  | .local _ .vmem, ⟨21, _⟩ => ⟨S4000x64, .bf16⟩
  | .local _ .vmem, ⟨22, _⟩ => ⟨S64x64, .bf16⟩
  | .local _ .vmem, ⟨23, _⟩ => ⟨S4000x64, .f32⟩
  | .local _ .vmem, ⟨24, _⟩ => ⟨S4000x64, .f32⟩
  | .local _ .vmem, ⟨25, _⟩ => ⟨S4000x64, .f32⟩
  | .local _ .vmem, ⟨26, _⟩ => ⟨S4000x64, .f32⟩
  | .local _ .vmem, ⟨27, _⟩ => ⟨S1x64, .f32⟩
  | .local _ .vmem, ⟨28, _⟩ => ⟨S4000x64, .f32⟩
  | .local _ .vmem, ⟨29, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_8 : Ref sig .tc := ⟨.hbm, 73, rfl⟩
abbrev main_v52 : Ref sig .tc := ⟨.hbm, 74, rfl⟩
abbrev main_v53 : Ref sig .tc := ⟨.hbm, 75, rfl⟩
abbrev main_c_9 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_10 : Ref sig .tc := ⟨.hbm, 82, rfl⟩
abbrev main_v59 : Ref sig .tc := ⟨.hbm, 83, rfl⟩
abbrev main_v60 : Ref sig .tc := ⟨.hbm, 84, rfl⟩
abbrev main_c_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_12 : Ref sig .tc := ⟨.hbm, 92, rfl⟩
abbrev main_v67 : Ref sig .tc := ⟨.hbm, 93, rfl⟩
abbrev main_v68 : Ref sig .tc := ⟨.hbm, 94, rfl⟩
abbrev main_c_13 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_14 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_c_15 : Ref sig .tc := ⟨.hbm, 118, rfl⟩
abbrev main_v90 : Ref sig .tc := ⟨.hbm, 119, rfl⟩
abbrev main_v91 : Ref sig .tc := ⟨.hbm, 120, rfl⟩
abbrev main_c_16 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_c_17 : Ref sig .tc := ⟨.hbm, 127, rfl⟩
abbrev main_v97 : Ref sig .tc := ⟨.hbm, 128, rfl⟩
abbrev main_v98 : Ref sig .tc := ⟨.hbm, 129, rfl⟩
abbrev main_c_18 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_c_19 : Ref sig .tc := ⟨.hbm, 137, rfl⟩
abbrev main_v105 : Ref sig .tc := ⟨.hbm, 138, rfl⟩
abbrev main_v106 : Ref sig .tc := ⟨.hbm, 139, rfl⟩
abbrev main_c_20 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_cst_21 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_cst_22 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_cst_23 : Ref sig .tc := ⟨.hbm, 164, rfl⟩
abbrev main_v128 : Ref sig .tc := ⟨.hbm, 165, rfl⟩
abbrev main_cst_24 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_cst_25 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x64 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S4000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bitsLt_bf16_f32 : FTy.bits .bf16 < FTy.bits .f32
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S4000x64_S4000x64_0_0 : ∀ a, (![0, 0] : Fin 2 → Nat) a + S4000x64.size a ≤ S4000x64.size a
  h_S4000x64 : 0 < S4000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S1024x64 : S_.BroadcastsInDim S1024x64 (![] : Fin 0 → Fin S1024x64.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  scatter_S100000_S1600000x1_S1600000_n_0_0_1_wf : ScatterDims.WF S100000 S1600000x1 S1600000 [] [0] [0] 1
  dot_S4000x128_S128x64_S4000x64_1_0_0_1_n_n_wf : DotDims.WF S4000x128 S128x64 S4000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x64_S4000x64_1_0_0_1_n_n_wf : DotDims.WF S4000x64 S64x64 S4000x64 [1] [0] [0] [1] [] []
  scatter_S1024x64_S100000x1_S100000x64_1_0_0_1_wf : ScatterDims.WF S1024x64 S100000x1 S100000x64 [1] [0] [0] 1
  scatter_S1024_S100000x1_S100000_n_0_0_1_wf : ScatterDims.WF S1024 S100000x1 S100000 [] [0] [0] 1
  dot_S1024x64_S64x1_S1024x1_1_0_0_1_n_n_wf : DotDims.WF S1024x64 S64x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .bf16 = 32 ∨ (Rect.block (s := S100000x128) S4000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .bf16 = 32 ∨ (Rect.block (s := S128x64) S128x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S100000x64.size a
  hwx1_2 : ∀ i : grid1.Coords, EltTy.bits .f32 = 32 ∨ (Rect.block (s := S100000x64) S4000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .bf16 = 32 ∨ (Rect.block (s := S100000x64) S4000x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .bf16 = 32 ∨ (Rect.block (s := S64x64) S64x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S100000x64.size a
  hwx2_2 : ∀ i : grid2.Coords, EltTy.bits .f32 = 32 ∨ (Rect.block (s := S100000x64) S4000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x64.size a ≤ S100000x64.size a
  hwx3_2 : ∀ i : grid3.Coords, EltTy.bits .f32 = 32 ∨ (Rect.block (s := S100000x64) S4000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S100000x64.size a
  hwx4_0 : ∀ i : grid4.Coords, EltTy.bits .bf16 = 32 ∨ (Rect.block (s := S100000x64) S4000x64.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .bf16 = 32 ∨ (Rect.block (s := S64x64) S64x64.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x64.size a ≤ S100000x64.size a
  hwx4_2 : ∀ i : grid4.Coords, EltTy.bits .f32 = 32 ∨ (Rect.block (s := S100000x64) S4000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x64.size a ≤ S100000x64.size a
  hwx5_0 : ∀ i : grid5.Coords, EltTy.bits .f32 = 32 ∨ (Rect.block (s := S100000x64) S4000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x64.size a ≤ S100000x64.size a
  hwx5_2 : ∀ i : grid5.Coords, EltTy.bits .f32 = 32 ∨ (Rect.block (s := S100000x64) S4000x64.size (cc5_transform_2 i) (hinb5_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

abbrev win0_0 : Pipeline.Window sig grid0 :=
  Pipeline.Window.ofSpec (Memref.whole main_v11) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S4000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S4000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v84) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v85) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v86) S4000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v87) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v88) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v89) S4000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v122) S4000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v123) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v124) S4000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x64 : Shape := ⟨2, ![100000, 64]⟩
abbrev S1600000x64 : Shape := ⟨2, ![1600000, 64]⟩
abbrev S100000x1 : Shape := ⟨2, ![100000, 1]⟩
abbrev S1x64 : Shape := ⟨2, ![1, 64]⟩
abbrev S1024x64 : Shape := ⟨2, ![1024, 64]⟩
abbrev S1024 : Shape := ⟨1, ![1024]⟩
abbrev S1024x1 : Shape := ⟨2, ![1024, 1]⟩
abbrev S1x1 : Shape := ⟨2, ![1, 1]⟩

abbrev nBuf : Space → Nat
  | .hbm => 183
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x1, .f32⟩
  | 10 => ⟨S1, .f32⟩
  | 11 => ⟨S1x1600000, .i32⟩
  | 12 => ⟨S1600000, .i32⟩
  | 13 => ⟨S1x1600000, .i32⟩
  | 14 => ⟨S1600000, .i32⟩
  | 15 => ⟨S_, .f32⟩
  | 16 => ⟨S1600000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S100000, .f32⟩
  | 23 => ⟨S100000, .f32⟩
  | 24 => ⟨S100000, .f32⟩
  | 25 => ⟨S100000x64, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S1600000, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x64, .f32⟩
  | 54 => ⟨S1600000x1, .f32⟩
  | 55 => ⟨S1600000x64, .f32⟩
  | 56 => ⟨S1600000x64, .f32⟩
  | 57 => ⟨S_, .f32⟩
  | 58 => ⟨S100000x64, .f32⟩
  | 59 => ⟨S1600000x1, .i32⟩
  | 60 => ⟨S100000x64, .f32⟩
  | 61 => ⟨S100000, .f32⟩
  | 62 => ⟨S100000x1, .f32⟩
  | 63 => ⟨S100000x64, .f32⟩
  | 64 => ⟨S100000x64, .f32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x64, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000, .f32⟩
  | 91 => ⟨S1600000, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000x64, .f32⟩
  | 101 => ⟨S1600000x1, .f32⟩
  | 102 => ⟨S1600000x64, .f32⟩
  | 103 => ⟨S1600000x64, .f32⟩
  | 104 => ⟨S_, .f32⟩
  | 105 => ⟨S100000x64, .f32⟩
  | 106 => ⟨S1600000x1, .i32⟩
  | 107 => ⟨S100000x64, .f32⟩
  | 108 => ⟨S100000, .f32⟩
  | 109 => ⟨S100000x1, .f32⟩
  | 110 => ⟨S100000x64, .f32⟩
  | 111 => ⟨S100000x64, .f32⟩
  | 112 => ⟨S100000x64, .f32⟩
  | 113 => ⟨S1x64, .f32⟩
  | 114 => ⟨S100000x64, .f32⟩
  | 115 => ⟨S100000x64, .f32⟩
  | 116 => ⟨S_, .f32⟩
  | 117 => ⟨S100000x64, .f32⟩
  | 118 => ⟨S100000x64, .f32⟩
  | 119 => ⟨S100000x64, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x128, .f32⟩

abbrev hbmTy0_1 (i : Nat) : BufTy := match i % 128 with
  | 0 => ⟨S1600000, .f32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S1600000, .f32⟩
  | 10 => ⟨S1600000, .f32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1600000x64, .f32⟩
  | 20 => ⟨S1600000x1, .f32⟩
  | 21 => ⟨S1600000x64, .f32⟩
  | 22 => ⟨S1600000x64, .f32⟩
  | 23 => ⟨S_, .f32⟩
  | 24 => ⟨S100000x64, .f32⟩
  | 25 => ⟨S1600000x1, .i32⟩
  | 26 => ⟨S100000x64, .f32⟩
  | 27 => ⟨S100000, .f32⟩
  | 28 => ⟨S100000x1, .f32⟩
  | 29 => ⟨S100000x64, .f32⟩
  | 30 => ⟨S100000x64, .f32⟩
  | 31 => ⟨S100000x64, .f32⟩
  | 32 => ⟨S1x64, .f32⟩
  | 33 => ⟨S100000x64, .f32⟩
  | 34 => ⟨S100000x64, .f32⟩
  | 35 => ⟨S_, .f32⟩
  | 36 => ⟨S1024x64, .f32⟩
  | 37 => ⟨S100000x1, .i32⟩
  | 38 => ⟨S1024x64, .f32⟩
  | 39 => ⟨S_, .f32⟩
  | 40 => ⟨S100000, .f32⟩
  | 41 => ⟨S_, .f32⟩
  | 42 => ⟨S1024, .f32⟩
  | 43 => ⟨S100000x1, .i32⟩
  | 44 => ⟨S1024, .f32⟩
  | 45 => ⟨S_, .f32⟩
  | 46 => ⟨S1024, .f32⟩
  | 47 => ⟨S1024, .f32⟩
  | 48 => ⟨S1024x1, .f32⟩
  | 49 => ⟨S1024x64, .f32⟩
  | 50 => ⟨S1024x64, .f32⟩
  | 51 => ⟨S1024x1, .f32⟩
  | 52 => ⟨S1x1, .f32⟩
  | 53 => ⟨S1024x1, .f32⟩
  | 54 => ⟨S1024x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_c_8 : Ref sig .tc := ⟨.hbm, 73, rfl⟩
abbrev main_v50 : Ref sig .tc := ⟨.hbm, 74, rfl⟩
abbrev main_v51 : Ref sig .tc := ⟨.hbm, 75, rfl⟩
abbrev main_c_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_10 : Ref sig .tc := ⟨.hbm, 82, rfl⟩
abbrev main_v57 : Ref sig .tc := ⟨.hbm, 83, rfl⟩
abbrev main_v58 : Ref sig .tc := ⟨.hbm, 84, rfl⟩
abbrev main_c_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_12 : Ref sig .tc := ⟨.hbm, 92, rfl⟩
abbrev main_v65 : Ref sig .tc := ⟨.hbm, 93, rfl⟩
abbrev main_v66 : Ref sig .tc := ⟨.hbm, 94, rfl⟩
abbrev main_c_13 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_14 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_call1_cst : Ref sig .tc := ⟨.hbm, 116, rfl⟩
abbrev main_call1_v0 : Ref sig .tc := ⟨.hbm, 117, rfl⟩
abbrev main_v86 : Ref sig .tc := ⟨.hbm, 118, rfl⟩
abbrev main_v87 : Ref sig .tc := ⟨.hbm, 119, rfl⟩
abbrev main_c_15 : Ref sig .tc := ⟨.hbm, 120, rfl⟩
abbrev main_v88 : Ref sig .tc := ⟨.hbm, 121, rfl⟩
abbrev main_v89 : Ref sig .tc := ⟨.hbm, 122, rfl⟩
abbrev main_c_16 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_c_17 : Ref sig .tc := ⟨.hbm, 129, rfl⟩
abbrev main_v95 : Ref sig .tc := ⟨.hbm, 130, rfl⟩
abbrev main_v96 : Ref sig .tc := ⟨.hbm, 131, rfl⟩
abbrev main_c_18 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_c_19 : Ref sig .tc := ⟨.hbm, 139, rfl⟩
abbrev main_v103 : Ref sig .tc := ⟨.hbm, 140, rfl⟩
abbrev main_v104 : Ref sig .tc := ⟨.hbm, 141, rfl⟩
abbrev main_c_20 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_cst_21 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_cst_22 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_cst_23 : Ref sig .tc := ⟨.hbm, 167, rfl⟩
abbrev main_v127 : Ref sig .tc := ⟨.hbm, 168, rfl⟩
abbrev main_cst_24 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_cst_25 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1024x64 : S_.BroadcastsInDim S1024x64 (![] : Fin 0 → Fin S1024x64.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S1024x64_S100000x1_S100000x64_1_0_0_1_wf : ScatterDims.WF S1024x64 S100000x1 S100000x64 [1] [0] [0] 1
  scatter_S1024_S100000x1_S100000_n_0_0_1_wf : ScatterDims.WF S1024 S100000x1 S100000 [] [0] [0] 1
  dot_S1024x64_S64x1_S1024x1_1_0_0_1_n_n_wf : DotDims.WF S1024x64 S64x1 S1024x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

class Facts : Prop extends Facts₀ where

variable [Facts]
-- ==== Proof.WholeRun.lean ====
/-
  The kernel's program is seven stretches of host operations around six pipelined regions. Its frame proof follows the
  contents of every buffer through those thirteen segments: `W13 m ρ c` is what core `c`'s buffers hold at the return.
  This module states the same run with the RESULT buffer read as well: every weakly fair execution terminates without a
  fault, the result holds `W13` at its reference, and the eleven arguments hold what they held at launch.
-/
import proofs.«164255_j4105988735685_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result named: the last thread state holds every unscoped buffer at `W13`, which is read against the
    final state at the result's reference and at each argument's. -/
theorem run : θ_run defs (onTc (τ := τ) (main (F := F))) ⟨m, fun _ => 0, ρ⟩ (fun r => ∀ c : Dev nD,
      r.2.mem ((c.tc : Thread nD τ).loc main_v140) = W13 m ρ c (Proc.devRef .tc main_v140)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v140 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c)⟩)

end Cert.KernelIdeal.Whole

end
-- ==== Proof.Kept.lean ====
/-
  Which buffers of the kernel's program are never written again once they hold their value: the edges' source and
  destination rows and the reciprocal root degrees (written by the first stretch of host operations only), and the
  arguments (written by nothing). Read from ANY contents `W`, each later stretch leaves them as they are, and none of them
  is an array of a pipelined region.
-/
import proofs.«164255_j4105988735685_1_alg».proof.Proof.Gen.KernelIdeal.Launch
import proofs.«164255_j4105988735685_1_alg».proof.Proof.Gen.ReferenceIdeal.Read
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Kept

open Cert.KernelIdeal Cert.KernelIdeal.Gen

variable (W : Valuation τ sig (Elt Ideal))

/-- The buffers read after the first stretch that nothing writes after it. -/
def later : List (Ref sig .tc) := [main_v1, main_v3, main_v10, main_arg2, main_arg4, main_arg5, main_arg6, main_arg7, main_arg8, main_arg9, main_arg10]
/-- The arguments. -/
def args : List (Ref sig .tc) := [main_arg0, main_arg1, main_arg2, main_arg3, main_arg4, main_arg5, main_arg6, main_arg7, main_arg8, main_arg9, main_arg10]

set_option maxHeartbeats 4000000 in
theorem host0 : ∀ b ∈ args, StableHlo.after hostOps0 W (Proc.devRef .tc b) = W (Proc.devRef .tc b) := by
  intro b hb
  simp only [args, List.mem_cons, List.mem_singleton, List.not_mem_nil, or_false] at hb
  rcases hb with rfl | rfl | rfl | rfl | rfl | rfl | rfl | rfl | rfl | rfl | rfl <;> after_results_simp
set_option maxHeartbeats 4000000 in
theorem host1 : ∀ b ∈ later, StableHlo.after hostOps1 W (Proc.devRef .tc b) = W (Proc.devRef .tc b) := by
  intro b hb
  simp only [later, List.mem_cons, List.mem_singleton, List.not_mem_nil, or_false] at hb
  rcases hb with rfl | rfl | rfl | rfl | rfl | rfl | rfl | rfl | rfl | rfl | rfl <;> after_results_simp
set_option maxHeartbeats 4000000 in
theorem host2 : ∀ b ∈ later, StableHlo.after hostOps2 W (Proc.devRef .tc b) = W (Proc.devRef .tc b) := by
  intro b hb
  simp only [later, List.mem_cons, List.mem_singleton, List.not_mem_nil, or_false] at hb
  rcases hb with rfl | rfl | rfl | rfl | rfl | rfl | rfl | rfl | rfl | rfl | rfl <;> after_results_simp
set_option maxHeartbeats 4000000 in
theorem host3 : ∀ b ∈ later, StableHlo.after hostOps3 W (Proc.devRef .tc b) = W (Proc.devRef .tc b) := by
  intro b hb
  simp only [later, List.mem_cons, List.mem_singleton, List.not_mem_nil, or_false] at hb
  rcases hb with rfl | rfl | rfl | rfl | rfl | rfl | rfl | rfl | rfl | rfl | rfl <;> after_results_simp
set_option maxHeartbeats 4000000 in
theorem host4 : ∀ b ∈ later, StableHlo.after hostOps4 W (Proc.devRef .tc b) = W (Proc.devRef .tc b) := by
  intro b hb
  simp only [later, List.mem_cons, List.mem_singleton, List.not_mem_nil, or_false] at hb
  rcases hb with rfl | rfl | rfl | rfl | rfl | rfl | rfl | rfl | rfl | rfl | rfl <;> after_results_simp
set_option maxHeartbeats 4000000 in
theorem host5 : ∀ b ∈ later, StableHlo.after hostOps5 W (Proc.devRef .tc b) = W (Proc.devRef .tc b) := by
  intro b hb
  simp only [later, List.mem_cons, List.mem_singleton, List.not_mem_nil, or_false] at hb
  rcases hb with rfl | rfl | rfl | rfl | rfl | rfl | rfl | rfl | rfl | rfl | rfl <;> after_results_simp
set_option maxHeartbeats 4000000 in
theorem host6 : ∀ b ∈ later, StableHlo.after hostOps6 W (Proc.devRef .tc b) = W (Proc.devRef .tc b) := by
  intro b hb
  simp only [later, List.mem_cons, List.mem_singleton, List.not_mem_nil, or_false] at hb
  rcases hb with rfl | rfl | rfl | rfl | rfl | rfl | rfl | rfl | rfl | rfl | rfl <;> after_results_simp

set_option maxHeartbeats 4000000 in
theorem region0 : ∀ b ∈ later, ∀ w, Pipeline.arrRef spec0 w ≠ b := by
  intro b hb
  simp only [later, List.mem_cons, List.mem_singleton, List.not_mem_nil, or_false] at hb
  rcases hb with rfl | rfl | rfl | rfl | rfl | rfl | rfl | rfl | rfl | rfl | rfl <;> decide +kernel
set_option maxHeartbeats 4000000 in
theorem region1 : ∀ b ∈ later, ∀ w, Pipeline.arrRef spec1 w ≠ b := by
  intro b hb
  simp only [later, List.mem_cons, List.mem_singleton, List.not_mem_nil, or_false] at hb
  rcases hb with rfl | rfl | rfl | rfl | rfl | rfl | rfl | rfl | rfl | rfl | rfl <;> decide +kernel
set_option maxHeartbeats 4000000 in
theorem region2 : ∀ b ∈ later, ∀ w, Pipeline.arrRef spec2 w ≠ b := by
  intro b hb
  simp only [later, List.mem_cons, List.mem_singleton, List.not_mem_nil, or_false] at hb
  rcases hb with rfl | rfl | rfl | rfl | rfl | rfl | rfl | rfl | rfl | rfl | rfl <;> decide +kernel
set_option maxHeartbeats 4000000 in
theorem region3 : ∀ b ∈ later, ∀ w, Pipeline.arrRef spec3 w ≠ b := by
  intro b hb
  simp only [later, List.mem_cons, List.mem_singleton, List.not_mem_nil, or_false] at hb
  rcases hb with rfl | rfl | rfl | rfl | rfl | rfl | rfl | rfl | rfl | rfl | rfl <;> decide +kernel
set_option maxHeartbeats 4000000 in
theorem region4 : ∀ b ∈ later, ∀ w, Pipeline.arrRef spec4 w ≠ b := by
  intro b hb
  simp only [later, List.mem_cons, List.mem_singleton, List.not_mem_nil, or_false] at hb
  rcases hb with rfl | rfl | rfl | rfl | rfl | rfl | rfl | rfl | rfl | rfl | rfl <;> decide +kernel
set_option maxHeartbeats 4000000 in
theorem region5 : ∀ b ∈ later, ∀ w, Pipeline.arrRef spec5 w ≠ b := by
  intro b hb
  simp only [later, List.mem_cons, List.mem_singleton, List.not_mem_nil, or_false] at hb
  rcases hb with rfl | rfl | rfl | rfl | rfl | rfl | rfl | rfl | rfl | rfl | rfl <;> decide +kernel

end Cert.KernelIdeal.Kept

end
-- ==== Proof.Host0.lean ====
/-
  The first stretch of host operations of the kernel's program, read from ANY contents `W` of the buffers: it splits the
  edge list into its source row and its destination row, counts each node's incoming edges (plus one, the self loop) and
  takes the reciprocal square root of the counts, and casts the node features and the first weight matrix to the matrix
  unit's input format — the identity on the extended reals. Each result is the reference program's stage of the same name.
-/
import proofs.«164255_j4105988735685_1_alg».proof.Proof.Gen.KernelIdeal.Launch
import proofs.«164255_j4105988735685_1_alg».proof.Proof.Gen.ReferenceIdeal.Read
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Host0

open Cert.KernelIdeal Cert.KernelIdeal.Gen Cert.ReferenceIdeal.Read

variable (W : Valuation τ sig (Elt Ideal))
variable (x0 : (⟨Cert.ReferenceIdeal.S100000x128, .f32⟩ : BufTy).Contents (Elt Ideal)) (x1 : (⟨Cert.ReferenceIdeal.S2x1600000, .i32⟩ : BufTy).Contents (Elt Ideal))
  (x2 : (⟨Cert.ReferenceIdeal.S100000, .i32⟩ : BufTy).Contents (Elt Ideal)) (x3 : (⟨Cert.ReferenceIdeal.S128x64, .f32⟩ : BufTy).Contents (Elt Ideal))
  (x4 : (⟨Cert.ReferenceIdeal.S64, .f32⟩ : BufTy).Contents (Elt Ideal)) (x5 : (⟨Cert.ReferenceIdeal.S64x64, .f32⟩ : BufTy).Contents (Elt Ideal))
  (x6 : (⟨Cert.ReferenceIdeal.S64, .f32⟩ : BufTy).Contents (Elt Ideal)) (x7 : (⟨Cert.ReferenceIdeal.S64x64, .f32⟩ : BufTy).Contents (Elt Ideal))
  (x8 : (⟨Cert.ReferenceIdeal.S64, .f32⟩ : BufTy).Contents (Elt Ideal)) (x9 : (⟨Cert.ReferenceIdeal.S64x1, .f32⟩ : BufTy).Contents (Elt Ideal))
  (x10 : (⟨Cert.ReferenceIdeal.S1, .f32⟩ : BufTy).Contents (Elt Ideal))

/-- The edges' source nodes. -/
theorem src (h : W (Proc.devRef .tc main_arg1) = x1) :
    StableHlo.after hostOps0 W (Proc.devRef .tc main_v1) = val_main_v1 (F := Ideal) x1 := by
  subst h; after_results_simp; rfl
/-- The edges' destination nodes. -/
theorem dst (h : W (Proc.devRef .tc main_arg1) = x1) :
    StableHlo.after hostOps0 W (Proc.devRef .tc main_v3) = val_main_v3 (F := Ideal) x1 := by
  subst h; after_results_simp; rfl
/-- The reciprocal square root of each node's degree. -/
theorem dis (h : W (Proc.devRef .tc main_arg1) = x1) :
    StableHlo.after hostOps0 W (Proc.devRef .tc main_v10) = val_main_v10 (F := Ideal) x1 := by
  subst h; after_results_simp; rfl
/-- The node features in the matrix unit's input format: the same extended reals. -/
theorem feat (h : W (Proc.devRef .tc main_arg0) = x0) :
    (StableHlo.after hostOps0 W (Proc.devRef .tc main_v11) : S100000x128.Idx → EReal) = x0 := by
  subst h; after_results_simp; rfl
/-- The first weight matrix in the matrix unit's input format: the same extended reals. -/
theorem weight (h : W (Proc.devRef .tc main_arg3) = x3) :
    (StableHlo.after hostOps0 W (Proc.devRef .tc main_v12) : S128x64.Idx → EReal) = x3 := by
  subst h; after_results_simp; rfl

end Cert.KernelIdeal.Host0

end
-- ==== Proof.HostAgg1.lean ====
/-
  The host operations between the matrix product and the bias pass of layer 1, read from ANY contents `W` of the
  buffers: every edge gathers its source node's row of the product, scales it by the two endpoints' reciprocal root
  degrees, and the scaled rows are added up per destination node; each node's own row, scaled by its squared reciprocal
  root degree, is added on. When the product, the two edge rows and the reciprocal root degrees are the reference
  program's stages, so is the sum. The bias vector is re-laid as one row.
-/
import proofs.«164255_j4105988735685_1_alg».proof.Proof.Gen.KernelIdeal.Launch
import proofs.«164255_j4105988735685_1_alg».proof.Proof.Gen.ReferenceIdeal.Read
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.HostAgg1

open Cert.KernelIdeal Cert.KernelIdeal.Gen Cert.ReferenceIdeal.Read

variable (W : Valuation τ sig (Elt Ideal))
variable (x0 : (⟨Cert.ReferenceIdeal.S100000x128, .f32⟩ : BufTy).Contents (Elt Ideal)) (x1 : (⟨Cert.ReferenceIdeal.S2x1600000, .i32⟩ : BufTy).Contents (Elt Ideal))
  (x2 : (⟨Cert.ReferenceIdeal.S100000, .i32⟩ : BufTy).Contents (Elt Ideal)) (x3 : (⟨Cert.ReferenceIdeal.S128x64, .f32⟩ : BufTy).Contents (Elt Ideal))
  (x4 : (⟨Cert.ReferenceIdeal.S64, .f32⟩ : BufTy).Contents (Elt Ideal)) (x5 : (⟨Cert.ReferenceIdeal.S64x64, .f32⟩ : BufTy).Contents (Elt Ideal))
  (x6 : (⟨Cert.ReferenceIdeal.S64, .f32⟩ : BufTy).Contents (Elt Ideal)) (x7 : (⟨Cert.ReferenceIdeal.S64x64, .f32⟩ : BufTy).Contents (Elt Ideal))
  (x8 : (⟨Cert.ReferenceIdeal.S64, .f32⟩ : BufTy).Contents (Elt Ideal)) (x9 : (⟨Cert.ReferenceIdeal.S64x1, .f32⟩ : BufTy).Contents (Elt Ideal))
  (x10 : (⟨Cert.ReferenceIdeal.S1, .f32⟩ : BufTy).Contents (Elt Ideal))

set_option maxHeartbeats 1000000 in
/-- The aggregated rows of layer 1. -/
theorem agg (hxw : W (Proc.devRef .tc main_v13) = val_main_v11 (F := Ideal) x0 x3)
    (hs : W (Proc.devRef .tc main_v1) = val_main_v1 (F := Ideal) x1)
    (hd : W (Proc.devRef .tc main_v3) = val_main_v3 (F := Ideal) x1)
    (hdis : W (Proc.devRef .tc main_v10) = val_main_v10 (F := Ideal) x1) :
    StableHlo.after hostOps1 W (Proc.devRef .tc main_v46) = val_main_v44 (F := Ideal) x0 x1 x3 := by
  after_results_simp
  rw [hxw, hs, hd, hdis]
  rfl

/-- The bias vector as one row. -/
theorem biasRow (h : W (Proc.devRef .tc main_arg4) = x4) :
    StableHlo.after hostOps1 W (Proc.devRef .tc main_v47) = shapeCast S1x64 x4 shapeCasts_S64_S1x64 := by
  subst h; after_results_simp; rfl

end Cert.KernelIdeal.HostAgg1

end
-- ==== Proof.HostAgg2.lean ====
/-
  The host operations between the matrix product and the bias pass of layer 2, read from ANY contents `W` of the
  buffers: every edge gathers its source node's row of the product, scales it by the two endpoints' reciprocal root
  degrees, and the scaled rows are added up per destination node; each node's own row, scaled by its squared reciprocal
  root degree, is added on. When the product, the two edge rows and the reciprocal root degrees are the reference
  program's stages, so is the sum. The bias vector is re-laid as one row.
-/
import proofs.«164255_j4105988735685_1_alg».proof.Proof.Gen.KernelIdeal.Launch
import proofs.«164255_j4105988735685_1_alg».proof.Proof.Gen.ReferenceIdeal.Read
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.HostAgg2

open Cert.KernelIdeal Cert.KernelIdeal.Gen Cert.ReferenceIdeal.Read

variable (W : Valuation τ sig (Elt Ideal))
variable (x0 : (⟨Cert.ReferenceIdeal.S100000x128, .f32⟩ : BufTy).Contents (Elt Ideal)) (x1 : (⟨Cert.ReferenceIdeal.S2x1600000, .i32⟩ : BufTy).Contents (Elt Ideal))
  (x2 : (⟨Cert.ReferenceIdeal.S100000, .i32⟩ : BufTy).Contents (Elt Ideal)) (x3 : (⟨Cert.ReferenceIdeal.S128x64, .f32⟩ : BufTy).Contents (Elt Ideal))
  (x4 : (⟨Cert.ReferenceIdeal.S64, .f32⟩ : BufTy).Contents (Elt Ideal)) (x5 : (⟨Cert.ReferenceIdeal.S64x64, .f32⟩ : BufTy).Contents (Elt Ideal))
  (x6 : (⟨Cert.ReferenceIdeal.S64, .f32⟩ : BufTy).Contents (Elt Ideal)) (x7 : (⟨Cert.ReferenceIdeal.S64x64, .f32⟩ : BufTy).Contents (Elt Ideal))
  (x8 : (⟨Cert.ReferenceIdeal.S64, .f32⟩ : BufTy).Contents (Elt Ideal)) (x9 : (⟨Cert.ReferenceIdeal.S64x1, .f32⟩ : BufTy).Contents (Elt Ideal))
  (x10 : (⟨Cert.ReferenceIdeal.S1, .f32⟩ : BufTy).Contents (Elt Ideal))

set_option maxHeartbeats 1000000 in
/-- The aggregated rows of layer 2. -/
theorem agg (hxw : W (Proc.devRef .tc main_v51) = val_main_v49 (F := Ideal) x0 x1 x3 x4 x5)
    (hs : W (Proc.devRef .tc main_v1) = val_main_v1 (F := Ideal) x1)
    (hd : W (Proc.devRef .tc main_v3) = val_main_v3 (F := Ideal) x1)
    (hdis : W (Proc.devRef .tc main_v10) = val_main_v10 (F := Ideal) x1) :
    StableHlo.after hostOps3 W (Proc.devRef .tc main_v84) = val_main_v82 (F := Ideal) x0 x1 x3 x4 x5 := by
  after_results_simp
  rw [hxw, hs, hd, hdis]
  rfl

/-- The bias vector as one row. -/
theorem biasRow (h : W (Proc.devRef .tc main_arg6) = x6) :
    StableHlo.after hostOps3 W (Proc.devRef .tc main_v85) = shapeCast S1x64 x6 shapeCasts_S64_S1x64 := by
  subst h; after_results_simp; rfl

end Cert.KernelIdeal.HostAgg2

end
-- ==== Proof.HostAgg3.lean ====
/-
  The host operations between the matrix product and the bias pass of layer 3, read from ANY contents `W` of the
  buffers: every edge gathers its source node's row of the product, scales it by the two endpoints' reciprocal root
  degrees, and the scaled rows are added up per destination node; each node's own row, scaled by its squared reciprocal
  root degree, is added on. When the product, the two edge rows and the reciprocal root degrees are the reference
  program's stages, so is the sum. The bias vector is re-laid as one row.
-/
import proofs.«164255_j4105988735685_1_alg».proof.Proof.Gen.KernelIdeal.Launch
import proofs.«164255_j4105988735685_1_alg».proof.Proof.Gen.ReferenceIdeal.Read
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.HostAgg3

open Cert.KernelIdeal Cert.KernelIdeal.Gen Cert.ReferenceIdeal.Read

variable (W : Valuation τ sig (Elt Ideal))
variable (x0 : (⟨Cert.ReferenceIdeal.S100000x128, .f32⟩ : BufTy).Contents (Elt Ideal)) (x1 : (⟨Cert.ReferenceIdeal.S2x1600000, .i32⟩ : BufTy).Contents (Elt Ideal))
  (x2 : (⟨Cert.ReferenceIdeal.S100000, .i32⟩ : BufTy).Contents (Elt Ideal)) (x3 : (⟨Cert.ReferenceIdeal.S128x64, .f32⟩ : BufTy).Contents (Elt Ideal))
  (x4 : (⟨Cert.ReferenceIdeal.S64, .f32⟩ : BufTy).Contents (Elt Ideal)) (x5 : (⟨Cert.ReferenceIdeal.S64x64, .f32⟩ : BufTy).Contents (Elt Ideal))
  (x6 : (⟨Cert.ReferenceIdeal.S64, .f32⟩ : BufTy).Contents (Elt Ideal)) (x7 : (⟨Cert.ReferenceIdeal.S64x64, .f32⟩ : BufTy).Contents (Elt Ideal))
  (x8 : (⟨Cert.ReferenceIdeal.S64, .f32⟩ : BufTy).Contents (Elt Ideal)) (x9 : (⟨Cert.ReferenceIdeal.S64x1, .f32⟩ : BufTy).Contents (Elt Ideal))
  (x10 : (⟨Cert.ReferenceIdeal.S1, .f32⟩ : BufTy).Contents (Elt Ideal))

set_option maxHeartbeats 1000000 in
/-- The aggregated rows of layer 3. -/
theorem agg (hxw : W (Proc.devRef .tc main_v89) = val_main_v87 (F := Ideal) x0 x1 x3 x4 x5 x6 x7)
    (hs : W (Proc.devRef .tc main_v1) = val_main_v1 (F := Ideal) x1)
    (hd : W (Proc.devRef .tc main_v3) = val_main_v3 (F := Ideal) x1)
    (hdis : W (Proc.devRef .tc main_v10) = val_main_v10 (F := Ideal) x1) :
    StableHlo.after hostOps5 W (Proc.devRef .tc main_v122) = val_main_v120 (F := Ideal) x0 x1 x3 x4 x5 x6 x7 := by
  after_results_simp
  rw [hxw, hs, hd, hdis]
  rfl

/-- The bias vector as one row. -/
theorem biasRow (h : W (Proc.devRef .tc main_arg8) = x8) :
    StableHlo.after hostOps5 W (Proc.devRef .tc main_v123) = shapeCast S1x64 x8 shapeCasts_S64_S1x64 := by
  subst h; after_results_simp; rfl

end Cert.KernelIdeal.HostAgg3

end
-- ==== Proof.HostCast.lean ====
/-
  The two short stretches between a bias pass and the next matrix product, read from ANY contents `W` of the buffers:
  each casts the previous layer's output and the next weight matrix to the matrix unit's input format, which on the
  extended reals changes nothing.
-/
import proofs.«164255_j4105988735685_1_alg».proof.Proof.Gen.KernelIdeal.Launch
import proofs.«164255_j4105988735685_1_alg».proof.Proof.Gen.ReferenceIdeal.Read
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.HostCast

open Cert.KernelIdeal Cert.KernelIdeal.Gen Cert.ReferenceIdeal.Read

variable (W : Valuation τ sig (Elt Ideal))
variable (x0 : (⟨Cert.ReferenceIdeal.S100000x128, .f32⟩ : BufTy).Contents (Elt Ideal)) (x1 : (⟨Cert.ReferenceIdeal.S2x1600000, .i32⟩ : BufTy).Contents (Elt Ideal))
  (x2 : (⟨Cert.ReferenceIdeal.S100000, .i32⟩ : BufTy).Contents (Elt Ideal)) (x3 : (⟨Cert.ReferenceIdeal.S128x64, .f32⟩ : BufTy).Contents (Elt Ideal))
  (x4 : (⟨Cert.ReferenceIdeal.S64, .f32⟩ : BufTy).Contents (Elt Ideal)) (x5 : (⟨Cert.ReferenceIdeal.S64x64, .f32⟩ : BufTy).Contents (Elt Ideal))
  (x6 : (⟨Cert.ReferenceIdeal.S64, .f32⟩ : BufTy).Contents (Elt Ideal)) (x7 : (⟨Cert.ReferenceIdeal.S64x64, .f32⟩ : BufTy).Contents (Elt Ideal))
  (x8 : (⟨Cert.ReferenceIdeal.S64, .f32⟩ : BufTy).Contents (Elt Ideal)) (x9 : (⟨Cert.ReferenceIdeal.S64x1, .f32⟩ : BufTy).Contents (Elt Ideal))
  (x10 : (⟨Cert.ReferenceIdeal.S1, .f32⟩ : BufTy).Contents (Elt Ideal))

variable (h : S100000x64.Idx → EReal)

/-- Layer 1's output, cast for layer 2's product. -/
theorem act2 (hh : (W (Proc.devRef .tc main_v48) : S100000x64.Idx → EReal) = h) :
    (StableHlo.after hostOps2 W (Proc.devRef .tc main_v49) : S100000x64.Idx → EReal) = h := by
  subst hh; after_results_simp; rfl
/-- Layer 2's weight matrix, cast. -/
theorem weight2 (hw : W (Proc.devRef .tc main_arg5) = x5) :
    (StableHlo.after hostOps2 W (Proc.devRef .tc main_v50) : S64x64.Idx → EReal) = x5 := by
  subst hw; after_results_simp; rfl
/-- Layer 2's output, cast for layer 3's product. -/
theorem act3 (hh : (W (Proc.devRef .tc main_v86) : S100000x64.Idx → EReal) = h) :
    (StableHlo.after hostOps4 W (Proc.devRef .tc main_v87) : S100000x64.Idx → EReal) = h := by
  subst hh; after_results_simp; rfl
/-- Layer 3's weight matrix, cast. -/
theorem weight3 (hw : W (Proc.devRef .tc main_arg7) = x7) :
    (StableHlo.after hostOps4 W (Proc.devRef .tc main_v88) : S64x64.Idx → EReal) = x7 := by
  subst hw; after_results_simp; rfl

end Cert.KernelIdeal.HostCast

end
-- ==== Proof.HostTail.lean ====
/-
  The last stretch of host operations of the kernel's program, read from ANY contents `W` of the buffers: the node rows
  of layer 3 are added up per graph, divided by the graph's node count (at least one), multiplied by the read-out column
  and shifted by its bias. When layer 3's output is the reference program's stage, so is the result.
-/
import proofs.«164255_j4105988735685_1_alg».proof.Proof.Gen.KernelIdeal.Launch
import proofs.«164255_j4105988735685_1_alg».proof.Proof.Gen.ReferenceIdeal.Read
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.HostTail

open Cert.KernelIdeal Cert.KernelIdeal.Gen Cert.ReferenceIdeal.Read

variable (W : Valuation τ sig (Elt Ideal))
variable (x0 : (⟨Cert.ReferenceIdeal.S100000x128, .f32⟩ : BufTy).Contents (Elt Ideal)) (x1 : (⟨Cert.ReferenceIdeal.S2x1600000, .i32⟩ : BufTy).Contents (Elt Ideal))
  (x2 : (⟨Cert.ReferenceIdeal.S100000, .i32⟩ : BufTy).Contents (Elt Ideal)) (x3 : (⟨Cert.ReferenceIdeal.S128x64, .f32⟩ : BufTy).Contents (Elt Ideal))
  (x4 : (⟨Cert.ReferenceIdeal.S64, .f32⟩ : BufTy).Contents (Elt Ideal)) (x5 : (⟨Cert.ReferenceIdeal.S64x64, .f32⟩ : BufTy).Contents (Elt Ideal))
  (x6 : (⟨Cert.ReferenceIdeal.S64, .f32⟩ : BufTy).Contents (Elt Ideal)) (x7 : (⟨Cert.ReferenceIdeal.S64x64, .f32⟩ : BufTy).Contents (Elt Ideal))
  (x8 : (⟨Cert.ReferenceIdeal.S64, .f32⟩ : BufTy).Contents (Elt Ideal)) (x9 : (⟨Cert.ReferenceIdeal.S64x1, .f32⟩ : BufTy).Contents (Elt Ideal))
  (x10 : (⟨Cert.ReferenceIdeal.S1, .f32⟩ : BufTy).Contents (Elt Ideal))

set_option maxHeartbeats 1000000 in
/-- The program's result. -/
theorem result (hh : W (Proc.devRef .tc main_v124) = val_main_v123 (F := Ideal) x0 x1 x3 x4 x5 x6 x7 x8)
    (h2 : W (Proc.devRef .tc main_arg2) = x2) (h9 : W (Proc.devRef .tc main_arg9) = x9) (h10 : W (Proc.devRef .tc main_arg10) = x10) :
    StableHlo.after hostOps6 W (Proc.devRef .tc main_v140) = val_main_v139 (F := Ideal) x0 x1 x2 x3 x4 x5 x6 x7 x8 x9 x10 := by
  subst h2 h9 h10
  after_results_simp
  rw [hh]
  rfl

end Cert.KernelIdeal.HostTail

end
-- ==== Proof.Reg0.lean ====
/-
  Region 0 of the kernel's program multiplies a [100000, 128] array by a [128, 64] matrix, 4000 rows per grid point over
  25 points, each point one matrix product of its block of rows with the whole matrix into a zero accumulator. This
  module reads the region's output array after the last point as ONE function of the two arrays the region finds on
  entry: element (r, c) is the sum over k < 128 of x (r, k) · w (k, c) on the extended reals. Point t's block is rows
  4000·t … 4000·t + 3999 of that function, and row r lies in the block of point r / 4000, so the 25 blocks cover the array.
-/
import proofs.«164255_j4105988735685_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg0

open Cert.KernelIdeal Cert.KernelIdeal.Gen

variable (V : (c : Dev nD) → (b : Ref sig .tc) → Buf (Elt Ideal) ((c : Thread nD τ).loc b))

theorem zero2 : (![0, 0] : Fin 2 → Nat) = fun _ => 0 := funext fun a => by fin_cases a <;> rfl

/-- Entry `k` of row `i 0` of the left array. -/
abbrev rowAt (i : S100000x64.Idx) (k : Fin 128) : S100000x128.Idx := fun a => match a with
  | ⟨0, _⟩ => ⟨(i 0).val, (i 0).isLt⟩
  | ⟨1, _⟩ => ⟨k.val, k.isLt⟩
/-- Entry `k` of column `i 1` of the matrix. -/
abbrev colAt (i : S100000x64.Idx) (k : Fin 128) : S128x64.Idx := fun a => match a with
  | ⟨0, _⟩ => ⟨k.val, k.isLt⟩
  | ⟨1, _⟩ => ⟨(i 1).val, (i 1).isLt⟩

/-- The rows of `x` times the matrix `w`: element `i` is the sum over `k` of `x (i 0, k) · w (k, i 1)`. -/
def rowsTimes (x : S100000x128.Idx → EReal) (w : S128x64.Idx → EReal) : S100000x64.Idx → EReal :=
  fun i => ∑ k : Fin 128, x (rowAt i k) * w (colAt i k)

/-- The block-sized product's operand indices: row `y 0` of the block against column `y 1` of the matrix. -/
theorem lhs_0 (y : S4000x64.Idx) (q : dot_S4000x128_S128x64_S4000x64_1_0_0_1_n_n.contr.Idx) : (dot_S4000x128_S128x64_S4000x64_1_0_0_1_n_n.lhsIdx y q 0).val = (y 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
theorem lhs_1 (y : S4000x64.Idx) (q : dot_S4000x128_S128x64_S4000x64_1_0_0_1_n_n.contr.Idx) : (dot_S4000x128_S128x64_S4000x64_1_0_0_1_n_n.lhsIdx y q 1).val = (q ⟨0, by decide⟩).val :=
  dot_S4000x128_S128x64_S4000x64_1_0_0_1_n_n.lhsIdx_val_of_single rfl y q
theorem rhs_0 (y : S4000x64.Idx) (q : dot_S4000x128_S128x64_S4000x64_1_0_0_1_n_n.contr.Idx) : (dot_S4000x128_S128x64_S4000x64_1_0_0_1_n_n.rhsIdx y q 0).val = (q ⟨0, by decide⟩).val :=
  dot_S4000x128_S128x64_S4000x64_1_0_0_1_n_n.rhsIdx_val_of_single rfl y q
theorem rhs_1 (y : S4000x64.Idx) (q : dot_S4000x128_S128x64_S4000x64_1_0_0_1_n_n.contr.Idx) : (dot_S4000x128_S128x64_S4000x64_1_0_0_1_n_n.rhsIdx y q 1).val = (y 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- Entry `k` of row `y 0` of a block, and entry `k` of column `y 1` of the matrix. -/
abbrev brow (y : S4000x64.Idx) (k : Fin 128) : S4000x128.Idx := fun a => match a with
  | ⟨0, _⟩ => ⟨(y 0).val, (y 0).isLt⟩
  | ⟨1, _⟩ => ⟨k.val, k.isLt⟩
abbrev bcol (y : S4000x64.Idx) (k : Fin 128) : S128x64.Idx := fun a => match a with
  | ⟨0, _⟩ => ⟨k.val, k.isLt⟩
  | ⟨1, _⟩ => ⟨(y 1).val, (y 1).isLt⟩

/-- The body's arithmetic at element `y` of a block: the product into a zero accumulator is the plain sum over `k`. -/
theorem body_at (x0 : FVec Ideal S4000x128 .bf16) (x1 : FVec Ideal S128x64 .bf16) (y : S4000x64.Idx) :
    (k0_pay1 (F := Ideal) x0 x1 y : EReal) = ∑ k : Fin 128, (x0 (brow y k) : EReal) * (x1 (bcol y k) : EReal) := by
  unfold k0_pay1
  have e0 : shapeCast S4000x128 x0 shapeCasts_S4000x128_S4000x128 = x0 := shapeCast_self _ _
  have e1 : shapeCast S128x64 x1 shapeCasts_S128x64_S128x64 = x1 := shapeCast_self _ _
  show FloatOps.matmul dot_S4000x128_S128x64_S4000x64_1_0_0_1_n_n none (shapeCast S4000x128 x0 shapeCasts_S4000x128_S4000x128) (shapeCast S128x64 x1 shapeCasts_S128x64_S128x64) (constant S4000x64 .f32 0x00000000#32) y = _
  rw [e0, e1]
  refine (Ideal.matmul_constant_zero_apply dot_S4000x128_S128x64_S4000x64_1_0_0_1_n_n none x0 x1 y).trans ?_
  rw [← Equiv.sum_comp (contrEquiv1 dot_S4000x128_S128x64_S4000x64_1_0_0_1_n_n 128 rfl rfl).symm]
  refine Finset.sum_congr rfl fun k _ => ?_
  have hk := contrEquiv1_symm_val dot_S4000x128_S128x64_S4000x64_1_0_0_1_n_n 128 rfl rfl k
  have el : dot_S4000x128_S128x64_S4000x64_1_0_0_1_n_n.lhsIdx y ((contrEquiv1 dot_S4000x128_S128x64_S4000x64_1_0_0_1_n_n 128 rfl rfl).symm k) = brow y k := funext fun a => Fin.ext (by
    match a with
    | ⟨0, _⟩ => exact lhs_0 _ _
    | ⟨1, _⟩ => exact (lhs_1 _ _).trans hk)
  have er : dot_S4000x128_S128x64_S4000x64_1_0_0_1_n_n.rhsIdx y ((contrEquiv1 dot_S4000x128_S128x64_S4000x64_1_0_0_1_n_n 128 rfl rfl).symm k) = bcol y k := funext fun a => Fin.ext (by
    match a with
    | ⟨0, _⟩ => exact (rhs_0 _ _).trans hk
    | ⟨1, _⟩ => exact rhs_1 _ _)
  rw [el, er]

/-- The printed index maps over the 25 points: the row windows move one block of rows per point, the matrix window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row window's block at point `t` is rows `4000 t …` of the array the region finds. -/
theorem rows_apply (c : Dev nD) (t : Fin cfg0.N) (x : S4000x128.Idx) (k : S100000x128.Idx)
    (hk0 : (k 0).val = 4000 * t.val + (x 0).val) (hk1 : (k 1).val = (x 1).val) :
    (iblk0 V c 0 t : FVec Ideal S4000x128 .bf16) x = (V c main_v11 : S100000x128.Idx → EReal) k := by
  obtain ⟨e0, e1, -, -, -, -⟩ := idx_facts t
  unfold iblk0
  rw [View.read_apply]
  show V c main_v11 _ = V c main_v11 _
  refine congrArg (V c main_v11) (funext fun a => Fin.ext ?_)
  match a with
  | ⟨0, _⟩ => show win0_0.index t (0 : Fin 2) * 4000 + 1 * (x 0).val = (k 0).val; rw [e0, hk0]; omega
  | ⟨1, _⟩ => show win0_0.index t (1 : Fin 2) * 128 + 1 * (x 1).val = (k 1).val; rw [e1, hk1]; omega

/-- The matrix window's block at every point is the whole matrix. -/
theorem matrix_apply (c : Dev nD) (t : Fin cfg0.N) (x : S128x64.Idx) :
    (iblk0 V c 1 t : FVec Ideal S128x64 .bf16) x = (V c main_v12 : S128x64.Idx → EReal) x := by
  obtain ⟨-, -, e2, e3, -, -⟩ := idx_facts t
  unfold iblk0
  rw [View.read_apply]
  show V c main_v12 _ = V c main_v12 _
  refine congrArg (V c main_v12) (funext fun a => Fin.ext ?_)
  match a with
  | ⟨0, _⟩ => show win0_1.index t (0 : Fin 2) * 128 + 1 * (x 0).val = (x 0).val; rw [e2]; omega
  | ⟨1, _⟩ => show win0_1.index t (1 : Fin 2) * 64 + 1 * (x 1).val = (x 1).val; rw [e3]; omega

/-- What point `t` computes at element `y` of its block is `rowsTimes` of the entry arrays at row `4000 t + y 0`. -/
theorem point_at (c : Dev nD) (t : Fin cfg0.N) (y : S4000x64.Idx) (i : S100000x64.Idx)
    (h0 : (i 0).val = 4000 * t.val + (y 0).val) (h1 : (i 1).val = (y 1).val) :
    (k0_pay1 (F := Ideal) (iblk0 V c 0 t) (iblk0 V c 1 t) y : EReal) = rowsTimes (V c main_v11) (V c main_v12) i := by
  refine (body_at (iblk0 V c 0 t) (iblk0 V c 1 t) y).trans ?_
  unfold rowsTimes
  refine Finset.sum_congr rfl fun k _ => ?_
  rw [rows_apply V c t (brow y k) (rowAt i k) h0 rfl, matrix_apply V c t (bcol y k)]
  have ec : (bcol y k : S128x64.Idx) = colAt i k := funext fun a => Fin.ext (by
    match a with
    | ⟨0, _⟩ => rfl
    | ⟨1, _⟩ => exact h1.symm)
  rw [ec]

/-- What point `t` writes back is block `t` of `rowsTimes` of the entry arrays. -/
theorem flushed_eq (c : Dev nD) (t : Fin cfg0.N) :
    (dat0 V c).flushed 2 t = ((cfg0.win 2).blk t).view.read (Elt Ideal) (rowsTimes (V c main_v11) (V c main_v12)) := by
  show (cfg0.win 2).cut (grid0.coords t) ((dat0 V c).after 2 t) = _
  rw [after0_2]
  unfold out0_2
  rw [View.canon_unit_zero zero2]
  simp only [View.ld_unit_zero (S := S4000x128) zero2, View.ld_unit_zero (S := S128x64) zero2]
  obtain ⟨-, -, -, -, e4, e5⟩ := idx_facts t
  funext j
  show (k0_pay1 (F := Ideal) (iblk0 V c 0 t) (iblk0 V c 1 t) j : EReal) = rowsTimes (V c main_v11) (V c main_v12) (((cfg0.win 2).blk t).view.emb j)
  refine point_at V c t j _ ?_ ?_
  · show win0_2.index t (0 : Fin 2) * 4000 + 1 * (j 0).val = 4000 * t.val + (j 0).val; rw [e4]; omega
  · show win0_2.index t (1 : Fin 2) * 64 + 1 * (j 1).val = (j 1).val; rw [e5]; omega

/-- An index of the output array is in point `t`'s block iff each coordinate is in the block's range. -/
theorem mem_blk (t : Fin cfg0.N) (i : S100000x64.Idx) :
    i ∈ ((cfg0.win 2).blk t).view.set ↔ ∀ a : Fin 2, win0_2.index t a * S4000x64.size a ≤ (i a).val ∧ (i a).val < win0_2.index t a * S4000x64.size a + S4000x64.size a := by
  show i ∈ ((View.whole main_v13).slice (win0_2.rect t)).set ↔ _
  rw [View.set_slice_whole, Rect.mem_set_unit]
  exact Iff.rfl

/-- Row `r` is written by point `r / 4000`. -/
theorem covered (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨-, -, -, -, e4, e5⟩ := idx_facts t
  refine ⟨t, flush0_2 t, ?_⟩
  rw [mem_blk]
  intro a
  match a with
  | ⟨0, _⟩ => show win0_2.index t (0 : Fin 2) * 4000 ≤ (i 0).val ∧ (i 0).val < win0_2.index t (0 : Fin 2) * 4000 + 4000; rw [e4, ht]; omega
  | ⟨1, _⟩ => show win0_2.index t (1 : Fin 2) * 64 ≤ (i 1).val ∧ (i 1).val < win0_2.index t (1 : Fin 2) * 64 + 64; rw [e5]; omega

/-- The region's output array after the last point. -/
theorem final (c : Dev nD) : (dat0 V c).arrAt 2 cfg0.N = rowsTimes (V c main_v11) (V c main_v12) :=
  (dat0 V c).arrAt_eq_of_cover 2 (rowsTimes (V c main_v11) (V c main_v12)) (fun t _ => flushed_eq V c t) (covered)

end Cert.KernelIdeal.Reg0

end
-- ==== Proof.Reg1.lean ====
/-
  Region 1 of the kernel's program adds one row of 64 biases to every row of a [100000, 64] array and clamps the sum below at zero,
  4000 rows per grid point over 25 points. This module reads the region's output array after the last point as ONE
  function of the two arrays the region finds on entry: element (r, c) is max (a (r, c) + b (0, c)) 0.
  Point t's block is rows 4000·t … 4000·t + 3999 of that function, and row r lies in the block of point r / 4000,
  so the 25 blocks cover the array.
-/
import proofs.«164255_j4105988735685_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg1

open Cert.KernelIdeal Cert.KernelIdeal.Gen

variable (V : (c : Dev nD) → (b : Ref sig .tc) → Buf (Elt Ideal) ((c : Thread nD τ).loc b))

theorem zero2 : (![0, 0] : Fin 2 → Nat) = fun _ => 0 := funext fun a => by fin_cases a <;> rfl

/-- The bias row's entry under column `i 1`. -/
abbrev under (i : S100000x64.Idx) : S1x64.Idx := fun a => match a with
  | ⟨0, _⟩ => ⟨0, Nat.one_pos⟩
  | ⟨1, _⟩ => ⟨(i 1).val, (i 1).isLt⟩

/-- Every row of `a` plus the row `b`, clamped below at zero. -/
def rowBias (a : S100000x64.Idx → EReal) (b : S1x64.Idx → EReal) : S100000x64.Idx → EReal :=
  fun i => max (a i + b (under i)) (Ideal.ofBits .f32 0x00000000#32)

/-- The body's arithmetic at row `p`, column `q` of a block. -/
theorem body_at (x0 : FVec Ideal S4000x64 .f32) (x1 : FVec Ideal S1x64 .f32) (p : Fin 4000) (q : Fin 64) :
    k1_pay1 x0 x1 (ix2 p q) = max (x0 (ix2 p q) + x1 (ix2 (0 : Fin 1) q)) (Ideal.ofBits .f32 0x00000000#32) := by
  unfold k1_pay1
  have e0 : shapeCast S4000x64 x0 shapeCasts_S4000x64_S4000x64 = x0 := shapeCast_self _ _
  have e1 : shapeCast S1x64 x1 shapeCasts_S1x64_S1x64 = x1 := shapeCast_self _ _
  have eb : broadcastTo S4000x64 x1 broadcasts_S1x64_S4000x64 (ix2 p q) = x1 (ix2 (0 : Fin 1) q) :=
    broadcastTo_1b_ab_apply x1 broadcasts_S1x64_S4000x64 p q
  show max (shapeCast S4000x64 x0 shapeCasts_S4000x64_S4000x64 (ix2 p q)
      + broadcastTo S4000x64 (shapeCast S1x64 x1 shapeCasts_S1x64_S1x64) broadcasts_S1x64_S4000x64 (ix2 p q)) _ = _
  rw [e0, e1, eb]
  rfl

/-- The printed index maps over the 25 points: the array windows move one block of rows per point, the bias window stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The array window's block at point `t` is rows `4000 t …` of the array the region finds. -/
theorem rows_apply (c : Dev nD) (t : Fin cfg1.N) (x : S4000x64.Idx) (k : S100000x64.Idx)
    (hk0 : (k 0).val = 4000 * t.val + (x 0).val) (hk1 : (k 1).val = (x 1).val) :
    (iblk1 V c 0 t : FVec Ideal S4000x64 .f32) x = (V c main_v46 : S100000x64.Idx → EReal) k := by
  obtain ⟨e0, e1, -, -, -, -⟩ := idx_facts t
  unfold iblk1
  rw [View.read_apply]
  show V c main_v46 _ = V c main_v46 _
  refine congrArg (V c main_v46) (funext fun a => Fin.ext ?_)
  match a with
  | ⟨0, _⟩ => show win1_0.index t (0 : Fin 2) * 4000 + 1 * (x 0).val = (k 0).val; rw [e0, hk0]; omega
  | ⟨1, _⟩ => show win1_0.index t (1 : Fin 2) * 64 + 1 * (x 1).val = (k 1).val; rw [e1, hk1]; omega

/-- The bias window's block at every point is the whole bias row. -/
theorem bias_apply (c : Dev nD) (t : Fin cfg1.N) (x : S1x64.Idx) :
    (iblk1 V c 1 t : FVec Ideal S1x64 .f32) x = (V c main_v47 : S1x64.Idx → EReal) x := by
  obtain ⟨-, -, e2, e3, -, -⟩ := idx_facts t
  unfold iblk1
  rw [View.read_apply]
  show V c main_v47 _ = V c main_v47 _
  refine congrArg (V c main_v47) (funext fun a => Fin.ext ?_)
  match a with
  | ⟨0, _⟩ => show win1_1.index t (0 : Fin 2) * 1 + 1 * (x 0).val = (x 0).val; rw [e2]; omega
  | ⟨1, _⟩ => show win1_1.index t (1 : Fin 2) * 64 + 1 * (x 1).val = (x 1).val; rw [e3]; omega

/-- What point `t` computes at element `y` of its block is `rowBias` of the entry arrays at row `4000 t + y 0`. -/
theorem point_at (c : Dev nD) (t : Fin cfg1.N) (y : S4000x64.Idx) (i : S100000x64.Idx)
    (h0 : (i 0).val = 4000 * t.val + (y 0).val) (h1 : (i 1).val = (y 1).val) :
    k1_pay1 (iblk1 V c 0 t) (iblk1 V c 1 t) y = rowBias (V c main_v46) (V c main_v47) i := by
  obtain ⟨p, q, rfl⟩ : ∃ (p : Fin 4000) (q : Fin 64), y = ix2 p q := ⟨y 0, y 1, eq_ix2 y⟩
  refine (body_at (iblk1 V c 0 t) (iblk1 V c 1 t) p q).trans ?_
  rw [rows_apply V c t (ix2 p q) i h0 h1, bias_apply V c t (ix2 (0 : Fin 1) q)]
  unfold rowBias
  have eu : (ix2 (0 : Fin 1) q : S1x64.Idx) = under i := funext fun a => Fin.ext (by
    match a with
    | ⟨0, _⟩ => rfl
    | ⟨1, _⟩ => exact h1.symm)
  rw [eu]

/-- What point `t` writes back is block `t` of `rowBias` of the entry arrays. -/
theorem flushed_eq (c : Dev nD) (t : Fin cfg1.N) :
    (dat1 V c).flushed 2 t = ((cfg1.win 2).blk t).view.read (Elt Ideal) (rowBias (V c main_v46) (V c main_v47)) := by
  show (cfg1.win 2).cut (grid1.coords t) ((dat1 V c).after 2 t) = _
  rw [after1_2]
  unfold out1_2
  rw [View.canon_unit_zero zero2]
  simp only [View.ld_unit_zero (S := S4000x64) zero2, View.ld_unit_zero (S := S1x64) zero2]
  obtain ⟨-, -, -, -, e4, e5⟩ := idx_facts t
  funext j
  show k1_pay1 (iblk1 V c 0 t) (iblk1 V c 1 t) j = rowBias (V c main_v46) (V c main_v47) (((cfg1.win 2).blk t).view.emb j)
  refine point_at V c t j _ ?_ ?_
  · show win1_2.index t (0 : Fin 2) * 4000 + 1 * (j 0).val = 4000 * t.val + (j 0).val; rw [e4]; omega
  · show win1_2.index t (1 : Fin 2) * 64 + 1 * (j 1).val = (j 1).val; rw [e5]; omega

/-- An index of the output array is in point `t`'s block iff each coordinate is in the block's range. -/
theorem mem_blk (t : Fin cfg1.N) (i : S100000x64.Idx) :
    i ∈ ((cfg1.win 2).blk t).view.set ↔ ∀ a : Fin 2, win1_2.index t a * S4000x64.size a ≤ (i a).val ∧ (i a).val < win1_2.index t a * S4000x64.size a + S4000x64.size a := by
  show i ∈ ((View.whole main_v48).slice (win1_2.rect t)).set ↔ _
  rw [View.set_slice_whole, Rect.mem_set_unit]
  exact Iff.rfl

/-- Row `r` is written by point `r / 4000`. -/
theorem covered (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 25 := N_1
  obtain ⟨t, ht⟩ : ∃ t : Fin cfg1.N, t.val = (i 0).val / 4000 := ⟨⟨(i 0).val / 4000, by rw [hN]; omega⟩, rfl⟩
  obtain ⟨-, -, -, -, e4, e5⟩ := idx_facts t
  refine ⟨t, flush1_2 t, ?_⟩
  rw [mem_blk]
  intro a
  match a with
  | ⟨0, _⟩ => show win1_2.index t (0 : Fin 2) * 4000 ≤ (i 0).val ∧ (i 0).val < win1_2.index t (0 : Fin 2) * 4000 + 4000; rw [e4, ht]; omega
  | ⟨1, _⟩ => show win1_2.index t (1 : Fin 2) * 64 ≤ (i 1).val ∧ (i 1).val < win1_2.index t (1 : Fin 2) * 64 + 64; rw [e5]; omega

/-- The region's output array after the last point. -/
theorem final (c : Dev nD) : (dat1 V c).arrAt 2 cfg1.N = rowBias (V c main_v46) (V c main_v47) :=
  (dat1 V c).arrAt_eq_of_cover 2 (rowBias (V c main_v46) (V c main_v47)) (fun t _ => flushed_eq V c t) (covered)

end Cert.KernelIdeal.Reg1

end
-- ==== Proof.Reg2.lean ====
/-
  Region 2 of the kernel's program multiplies a [100000, 64] array by a [64, 64] matrix, 4000 rows per grid point over
  25 points, each point one matrix product of its block of rows with the whole matrix into a zero accumulator. This
  module reads the region's output array after the last point as ONE function of the two arrays the region finds on
  entry: element (r, c) is the sum over k < 64 of x (r, k) · w (k, c) on the extended reals. Point t's block is rows
  4000·t … 4000·t + 3999 of that function, and row r lies in the block of point r / 4000, so the 25 blocks cover the array.
-/
import proofs.«164255_j4105988735685_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg2

open Cert.KernelIdeal Cert.KernelIdeal.Gen

variable (V : (c : Dev nD) → (b : Ref sig .tc) → Buf (Elt Ideal) ((c : Thread nD τ).loc b))

theorem zero2 : (![0, 0] : Fin 2 → Nat) = fun _ => 0 := funext fun a => by fin_cases a <;> rfl

/-- Entry `k` of row `i 0` of the left array. -/
abbrev rowAt (i : S100000x64.Idx) (k : Fin 64) : S100000x64.Idx := fun a => match a with
  | ⟨0, _⟩ => ⟨(i 0).val, (i 0).isLt⟩
  | ⟨1, _⟩ => ⟨k.val, k.isLt⟩
/-- Entry `k` of column `i 1` of the matrix. -/
abbrev colAt (i : S100000x64.Idx) (k : Fin 64) : S64x64.Idx := fun a => match a with
  | ⟨0, _⟩ => ⟨k.val, k.isLt⟩
  | ⟨1, _⟩ => ⟨(i 1).val, (i 1).isLt⟩

/-- The rows of `x` times the matrix `w`: element `i` is the sum over `k` of `x (i 0, k) · w (k, i 1)`. -/
def rowsTimes (x : S100000x64.Idx → EReal) (w : S64x64.Idx → EReal) : S100000x64.Idx → EReal :=
  fun i => ∑ k : Fin 64, x (rowAt i k) * w (colAt i k)

/-- The block-sized product's operand indices: row `y 0` of the block against column `y 1` of the matrix. -/
theorem lhs_0 (y : S4000x64.Idx) (q : dot_S4000x64_S64x64_S4000x64_1_0_0_1_n_n.contr.Idx) : (dot_S4000x64_S64x64_S4000x64_1_0_0_1_n_n.lhsIdx y q 0).val = (y 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
theorem lhs_1 (y : S4000x64.Idx) (q : dot_S4000x64_S64x64_S4000x64_1_0_0_1_n_n.contr.Idx) : (dot_S4000x64_S64x64_S4000x64_1_0_0_1_n_n.lhsIdx y q 1).val = (q ⟨0, by decide⟩).val :=
  dot_S4000x64_S64x64_S4000x64_1_0_0_1_n_n.lhsIdx_val_of_single rfl y q
theorem rhs_0 (y : S4000x64.Idx) (q : dot_S4000x64_S64x64_S4000x64_1_0_0_1_n_n.contr.Idx) : (dot_S4000x64_S64x64_S4000x64_1_0_0_1_n_n.rhsIdx y q 0).val = (q ⟨0, by decide⟩).val :=
  dot_S4000x64_S64x64_S4000x64_1_0_0_1_n_n.rhsIdx_val_of_single rfl y q
theorem rhs_1 (y : S4000x64.Idx) (q : dot_S4000x64_S64x64_S4000x64_1_0_0_1_n_n.contr.Idx) : (dot_S4000x64_S64x64_S4000x64_1_0_0_1_n_n.rhsIdx y q 1).val = (y 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- Entry `k` of row `y 0` of a block, and entry `k` of column `y 1` of the matrix. -/
abbrev brow (y : S4000x64.Idx) (k : Fin 64) : S4000x64.Idx := fun a => match a with
  | ⟨0, _⟩ => ⟨(y 0).val, (y 0).isLt⟩
  | ⟨1, _⟩ => ⟨k.val, k.isLt⟩
abbrev bcol (y : S4000x64.Idx) (k : Fin 64) : S64x64.Idx := fun a => match a with
  | ⟨0, _⟩ => ⟨k.val, k.isLt⟩
  | ⟨1, _⟩ => ⟨(y 1).val, (y 1).isLt⟩

/-- The body's arithmetic at element `y` of a block: the product into a zero accumulator is the plain sum over `k`. -/
theorem body_at (x0 : FVec Ideal S4000x64 .bf16) (x1 : FVec Ideal S64x64 .bf16) (y : S4000x64.Idx) :
    (k2_pay1 (F := Ideal) x0 x1 y : EReal) = ∑ k : Fin 64, (x0 (brow y k) : EReal) * (x1 (bcol y k) : EReal) := by
  unfold k2_pay1
  have e0 : shapeCast S4000x64 x0 shapeCasts_S4000x64_S4000x64 = x0 := shapeCast_self _ _
  have e1 : shapeCast S64x64 x1 shapeCasts_S64x64_S64x64 = x1 := shapeCast_self _ _
  show FloatOps.matmul dot_S4000x64_S64x64_S4000x64_1_0_0_1_n_n none (shapeCast S4000x64 x0 shapeCasts_S4000x64_S4000x64) (shapeCast S64x64 x1 shapeCasts_S64x64_S64x64) (constant S4000x64 .f32 0x00000000#32) y = _
  rw [e0, e1]
  refine (Ideal.matmul_constant_zero_apply dot_S4000x64_S64x64_S4000x64_1_0_0_1_n_n none x0 x1 y).trans ?_
  rw [← Equiv.sum_comp (contrEquiv1 dot_S4000x64_S64x64_S4000x64_1_0_0_1_n_n 64 rfl rfl).symm]
  refine Finset.sum_congr rfl fun k _ => ?_
  have hk := contrEquiv1_symm_val dot_S4000x64_S64x64_S4000x64_1_0_0_1_n_n 64 rfl rfl k
  have el : dot_S4000x64_S64x64_S4000x64_1_0_0_1_n_n.lhsIdx y ((contrEquiv1 dot_S4000x64_S64x64_S4000x64_1_0_0_1_n_n 64 rfl rfl).symm k) = brow y k := funext fun a => Fin.ext (by
    match a with
    | ⟨0, _⟩ => exact lhs_0 _ _
    | ⟨1, _⟩ => exact (lhs_1 _ _).trans hk)
  have er : dot_S4000x64_S64x64_S4000x64_1_0_0_1_n_n.rhsIdx y ((contrEquiv1 dot_S4000x64_S64x64_S4000x64_1_0_0_1_n_n 64 rfl rfl).symm k) = bcol y k := funext fun a => Fin.ext (by
    match a with
    | ⟨0, _⟩ => exact (rhs_0 _ _).trans hk
    | ⟨1, _⟩ => exact rhs_1 _ _)
  rw [el, er]

/-- The printed index maps over the 25 points: the row windows move one block of rows per point, the matrix window stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The row window's block at point `t` is rows `4000 t …` of the array the region finds. -/
theorem rows_apply (c : Dev nD) (t : Fin cfg2.N) (x : S4000x64.Idx) (k : S100000x64.Idx)
    (hk0 : (k 0).val = 4000 * t.val + (x 0).val) (hk1 : (k 1).val = (x 1).val) :
    (iblk2 V c 0 t : FVec Ideal S4000x64 .bf16) x = (V c main_v49 : S100000x64.Idx → EReal) k := by
  obtain ⟨e0, e1, -, -, -, -⟩ := idx_facts t
  unfold iblk2
  rw [View.read_apply]
  show V c main_v49 _ = V c main_v49 _
  refine congrArg (V c main_v49) (funext fun a => Fin.ext ?_)
  match a with
  | ⟨0, _⟩ => show win2_0.index t (0 : Fin 2) * 4000 + 1 * (x 0).val = (k 0).val; rw [e0, hk0]; omega
  | ⟨1, _⟩ => show win2_0.index t (1 : Fin 2) * 64 + 1 * (x 1).val = (k 1).val; rw [e1, hk1]; omega

/-- The matrix window's block at every point is the whole matrix. -/
theorem matrix_apply (c : Dev nD) (t : Fin cfg2.N) (x : S64x64.Idx) :
    (iblk2 V c 1 t : FVec Ideal S64x64 .bf16) x = (V c main_v50 : S64x64.Idx → EReal) x := by
  obtain ⟨-, -, e2, e3, -, -⟩ := idx_facts t
  unfold iblk2
  rw [View.read_apply]
  show V c main_v50 _ = V c main_v50 _
  refine congrArg (V c main_v50) (funext fun a => Fin.ext ?_)
  match a with
  | ⟨0, _⟩ => show win2_1.index t (0 : Fin 2) * 64 + 1 * (x 0).val = (x 0).val; rw [e2]; omega
  | ⟨1, _⟩ => show win2_1.index t (1 : Fin 2) * 64 + 1 * (x 1).val = (x 1).val; rw [e3]; omega

/-- What point `t` computes at element `y` of its block is `rowsTimes` of the entry arrays at row `4000 t + y 0`. -/
theorem point_at (c : Dev nD) (t : Fin cfg2.N) (y : S4000x64.Idx) (i : S100000x64.Idx)
    (h0 : (i 0).val = 4000 * t.val + (y 0).val) (h1 : (i 1).val = (y 1).val) :
    (k2_pay1 (F := Ideal) (iblk2 V c 0 t) (iblk2 V c 1 t) y : EReal) = rowsTimes (V c main_v49) (V c main_v50) i := by
  refine (body_at (iblk2 V c 0 t) (iblk2 V c 1 t) y).trans ?_
  unfold rowsTimes
  refine Finset.sum_congr rfl fun k _ => ?_
  rw [rows_apply V c t (brow y k) (rowAt i k) h0 rfl, matrix_apply V c t (bcol y k)]
  have ec : (bcol y k : S64x64.Idx) = colAt i k := funext fun a => Fin.ext (by
    match a with
    | ⟨0, _⟩ => rfl
    | ⟨1, _⟩ => exact h1.symm)
  rw [ec]

/-- What point `t` writes back is block `t` of `rowsTimes` of the entry arrays. -/
theorem flushed_eq (c : Dev nD) (t : Fin cfg2.N) :
    (dat2 V c).flushed 2 t = ((cfg2.win 2).blk t).view.read (Elt Ideal) (rowsTimes (V c main_v49) (V c main_v50)) := by
  show (cfg2.win 2).cut (grid2.coords t) ((dat2 V c).after 2 t) = _
  rw [after2_2]
  unfold out2_2
  rw [View.canon_unit_zero zero2]
  simp only [View.ld_unit_zero (S := S4000x64) zero2, View.ld_unit_zero (S := S64x64) zero2]
  obtain ⟨-, -, -, -, e4, e5⟩ := idx_facts t
  funext j
  show (k2_pay1 (F := Ideal) (iblk2 V c 0 t) (iblk2 V c 1 t) j : EReal) = rowsTimes (V c main_v49) (V c main_v50) (((cfg2.win 2).blk t).view.emb j)
  refine point_at V c t j _ ?_ ?_
  · show win2_2.index t (0 : Fin 2) * 4000 + 1 * (j 0).val = 4000 * t.val + (j 0).val; rw [e4]; omega
  · show win2_2.index t (1 : Fin 2) * 64 + 1 * (j 1).val = (j 1).val; rw [e5]; omega

/-- An index of the output array is in point `t`'s block iff each coordinate is in the block's range. -/
theorem mem_blk (t : Fin cfg2.N) (i : S100000x64.Idx) :
    i ∈ ((cfg2.win 2).blk t).view.set ↔ ∀ a : Fin 2, win2_2.index t a * S4000x64.size a ≤ (i a).val ∧ (i a).val < win2_2.index t a * S4000x64.size a + S4000x64.size a := by
  show i ∈ ((View.whole main_v51).slice (win2_2.rect t)).set ↔ _
  rw [View.set_slice_whole, Rect.mem_set_unit]
  exact Iff.rfl

/-- Row `r` is written by point `r / 4000`. -/
theorem covered (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 25 := N_2
  obtain ⟨t, ht⟩ : ∃ t : Fin cfg2.N, t.val = (i 0).val / 4000 := ⟨⟨(i 0).val / 4000, by rw [hN]; omega⟩, rfl⟩
  obtain ⟨-, -, -, -, e4, e5⟩ := idx_facts t
  refine ⟨t, flush2_2 t, ?_⟩
  rw [mem_blk]
  intro a
  match a with
  | ⟨0, _⟩ => show win2_2.index t (0 : Fin 2) * 4000 ≤ (i 0).val ∧ (i 0).val < win2_2.index t (0 : Fin 2) * 4000 + 4000; rw [e4, ht]; omega
  | ⟨1, _⟩ => show win2_2.index t (1 : Fin 2) * 64 ≤ (i 1).val ∧ (i 1).val < win2_2.index t (1 : Fin 2) * 64 + 64; rw [e5]; omega

/-- The region's output array after the last point. -/
theorem final (c : Dev nD) : (dat2 V c).arrAt 2 cfg2.N = rowsTimes (V c main_v49) (V c main_v50) :=
  (dat2 V c).arrAt_eq_of_cover 2 (rowsTimes (V c main_v49) (V c main_v50)) (fun t _ => flushed_eq V c t) (covered)

end Cert.KernelIdeal.Reg2

end
-- ==== Proof.Reg3.lean ====
/-
  Region 3 of the kernel's program adds one row of 64 biases to every row of a [100000, 64] array and clamps the sum below at zero,
  4000 rows per grid point over 25 points. This module reads the region's output array after the last point as ONE
  function of the two arrays the region finds on entry: element (r, c) is max (a (r, c) + b (0, c)) 0.
  Point t's block is rows 4000·t … 4000·t + 3999 of that function, and row r lies in the block of point r / 4000,
  so the 25 blocks cover the array.
-/
import proofs.«164255_j4105988735685_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg3

open Cert.KernelIdeal Cert.KernelIdeal.Gen

variable (V : (c : Dev nD) → (b : Ref sig .tc) → Buf (Elt Ideal) ((c : Thread nD τ).loc b))

theorem zero2 : (![0, 0] : Fin 2 → Nat) = fun _ => 0 := funext fun a => by fin_cases a <;> rfl

/-- The bias row's entry under column `i 1`. -/
abbrev under (i : S100000x64.Idx) : S1x64.Idx := fun a => match a with
  | ⟨0, _⟩ => ⟨0, Nat.one_pos⟩
  | ⟨1, _⟩ => ⟨(i 1).val, (i 1).isLt⟩

/-- Every row of `a` plus the row `b`, clamped below at zero. -/
def rowBias (a : S100000x64.Idx → EReal) (b : S1x64.Idx → EReal) : S100000x64.Idx → EReal :=
  fun i => max (a i + b (under i)) (Ideal.ofBits .f32 0x00000000#32)

/-- The body's arithmetic at row `p`, column `q` of a block. -/
theorem body_at (x0 : FVec Ideal S4000x64 .f32) (x1 : FVec Ideal S1x64 .f32) (p : Fin 4000) (q : Fin 64) :
    k3_pay1 x0 x1 (ix2 p q) = max (x0 (ix2 p q) + x1 (ix2 (0 : Fin 1) q)) (Ideal.ofBits .f32 0x00000000#32) := by
  unfold k3_pay1
  have e0 : shapeCast S4000x64 x0 shapeCasts_S4000x64_S4000x64 = x0 := shapeCast_self _ _
  have e1 : shapeCast S1x64 x1 shapeCasts_S1x64_S1x64 = x1 := shapeCast_self _ _
  have eb : broadcastTo S4000x64 x1 broadcasts_S1x64_S4000x64 (ix2 p q) = x1 (ix2 (0 : Fin 1) q) :=
    broadcastTo_1b_ab_apply x1 broadcasts_S1x64_S4000x64 p q
  show max (shapeCast S4000x64 x0 shapeCasts_S4000x64_S4000x64 (ix2 p q)
      + broadcastTo S4000x64 (shapeCast S1x64 x1 shapeCasts_S1x64_S1x64) broadcasts_S1x64_S4000x64 (ix2 p q)) _ = _
  rw [e0, e1, eb]
  rfl

/-- The printed index maps over the 25 points: the array windows move one block of rows per point, the bias window stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The array window's block at point `t` is rows `4000 t …` of the array the region finds. -/
theorem rows_apply (c : Dev nD) (t : Fin cfg3.N) (x : S4000x64.Idx) (k : S100000x64.Idx)
    (hk0 : (k 0).val = 4000 * t.val + (x 0).val) (hk1 : (k 1).val = (x 1).val) :
    (iblk3 V c 0 t : FVec Ideal S4000x64 .f32) x = (V c main_v84 : S100000x64.Idx → EReal) k := by
  obtain ⟨e0, e1, -, -, -, -⟩ := idx_facts t
  unfold iblk3
  rw [View.read_apply]
  show V c main_v84 _ = V c main_v84 _
  refine congrArg (V c main_v84) (funext fun a => Fin.ext ?_)
  match a with
  | ⟨0, _⟩ => show win3_0.index t (0 : Fin 2) * 4000 + 1 * (x 0).val = (k 0).val; rw [e0, hk0]; omega
  | ⟨1, _⟩ => show win3_0.index t (1 : Fin 2) * 64 + 1 * (x 1).val = (k 1).val; rw [e1, hk1]; omega

/-- The bias window's block at every point is the whole bias row. -/
theorem bias_apply (c : Dev nD) (t : Fin cfg3.N) (x : S1x64.Idx) :
    (iblk3 V c 1 t : FVec Ideal S1x64 .f32) x = (V c main_v85 : S1x64.Idx → EReal) x := by
  obtain ⟨-, -, e2, e3, -, -⟩ := idx_facts t
  unfold iblk3
  rw [View.read_apply]
  show V c main_v85 _ = V c main_v85 _
  refine congrArg (V c main_v85) (funext fun a => Fin.ext ?_)
  match a with
  | ⟨0, _⟩ => show win3_1.index t (0 : Fin 2) * 1 + 1 * (x 0).val = (x 0).val; rw [e2]; omega
  | ⟨1, _⟩ => show win3_1.index t (1 : Fin 2) * 64 + 1 * (x 1).val = (x 1).val; rw [e3]; omega

/-- What point `t` computes at element `y` of its block is `rowBias` of the entry arrays at row `4000 t + y 0`. -/
theorem point_at (c : Dev nD) (t : Fin cfg3.N) (y : S4000x64.Idx) (i : S100000x64.Idx)
    (h0 : (i 0).val = 4000 * t.val + (y 0).val) (h1 : (i 1).val = (y 1).val) :
    k3_pay1 (iblk3 V c 0 t) (iblk3 V c 1 t) y = rowBias (V c main_v84) (V c main_v85) i := by
  obtain ⟨p, q, rfl⟩ : ∃ (p : Fin 4000) (q : Fin 64), y = ix2 p q := ⟨y 0, y 1, eq_ix2 y⟩
  refine (body_at (iblk3 V c 0 t) (iblk3 V c 1 t) p q).trans ?_
  rw [rows_apply V c t (ix2 p q) i h0 h1, bias_apply V c t (ix2 (0 : Fin 1) q)]
  unfold rowBias
  have eu : (ix2 (0 : Fin 1) q : S1x64.Idx) = under i := funext fun a => Fin.ext (by
    match a with
    | ⟨0, _⟩ => rfl
    | ⟨1, _⟩ => exact h1.symm)
  rw [eu]

/-- What point `t` writes back is block `t` of `rowBias` of the entry arrays. -/
theorem flushed_eq (c : Dev nD) (t : Fin cfg3.N) :
    (dat3 V c).flushed 2 t = ((cfg3.win 2).blk t).view.read (Elt Ideal) (rowBias (V c main_v84) (V c main_v85)) := by
  show (cfg3.win 2).cut (grid3.coords t) ((dat3 V c).after 2 t) = _
  rw [after3_2]
  unfold out3_2
  rw [View.canon_unit_zero zero2]
  simp only [View.ld_unit_zero (S := S4000x64) zero2, View.ld_unit_zero (S := S1x64) zero2]
  obtain ⟨-, -, -, -, e4, e5⟩ := idx_facts t
  funext j
  show k3_pay1 (iblk3 V c 0 t) (iblk3 V c 1 t) j = rowBias (V c main_v84) (V c main_v85) (((cfg3.win 2).blk t).view.emb j)
  refine point_at V c t j _ ?_ ?_
  · show win3_2.index t (0 : Fin 2) * 4000 + 1 * (j 0).val = 4000 * t.val + (j 0).val; rw [e4]; omega
  · show win3_2.index t (1 : Fin 2) * 64 + 1 * (j 1).val = (j 1).val; rw [e5]; omega

/-- An index of the output array is in point `t`'s block iff each coordinate is in the block's range. -/
theorem mem_blk (t : Fin cfg3.N) (i : S100000x64.Idx) :
    i ∈ ((cfg3.win 2).blk t).view.set ↔ ∀ a : Fin 2, win3_2.index t a * S4000x64.size a ≤ (i a).val ∧ (i a).val < win3_2.index t a * S4000x64.size a + S4000x64.size a := by
  show i ∈ ((View.whole main_v86).slice (win3_2.rect t)).set ↔ _
  rw [View.set_slice_whole, Rect.mem_set_unit]
  exact Iff.rfl

/-- Row `r` is written by point `r / 4000`. -/
theorem covered (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 25 := N_3
  obtain ⟨t, ht⟩ : ∃ t : Fin cfg3.N, t.val = (i 0).val / 4000 := ⟨⟨(i 0).val / 4000, by rw [hN]; omega⟩, rfl⟩
  obtain ⟨-, -, -, -, e4, e5⟩ := idx_facts t
  refine ⟨t, flush3_2 t, ?_⟩
  rw [mem_blk]
  intro a
  match a with
  | ⟨0, _⟩ => show win3_2.index t (0 : Fin 2) * 4000 ≤ (i 0).val ∧ (i 0).val < win3_2.index t (0 : Fin 2) * 4000 + 4000; rw [e4, ht]; omega
  | ⟨1, _⟩ => show win3_2.index t (1 : Fin 2) * 64 ≤ (i 1).val ∧ (i 1).val < win3_2.index t (1 : Fin 2) * 64 + 64; rw [e5]; omega

/-- The region's output array after the last point. -/
theorem final (c : Dev nD) : (dat3 V c).arrAt 2 cfg3.N = rowBias (V c main_v84) (V c main_v85) :=
  (dat3 V c).arrAt_eq_of_cover 2 (rowBias (V c main_v84) (V c main_v85)) (fun t _ => flushed_eq V c t) (covered)

end Cert.KernelIdeal.Reg3

end
-- ==== Proof.Reg4.lean ====
/-
  Region 4 of the kernel's program multiplies a [100000, 64] array by a [64, 64] matrix, 4000 rows per grid point over
  25 points, each point one matrix product of its block of rows with the whole matrix into a zero accumulator. This
  module reads the region's output array after the last point as ONE function of the two arrays the region finds on
  entry: element (r, c) is the sum over k < 64 of x (r, k) · w (k, c) on the extended reals. Point t's block is rows
  4000·t … 4000·t + 3999 of that function, and row r lies in the block of point r / 4000, so the 25 blocks cover the array.
-/
import proofs.«164255_j4105988735685_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg4

open Cert.KernelIdeal Cert.KernelIdeal.Gen

variable (V : (c : Dev nD) → (b : Ref sig .tc) → Buf (Elt Ideal) ((c : Thread nD τ).loc b))

theorem zero2 : (![0, 0] : Fin 2 → Nat) = fun _ => 0 := funext fun a => by fin_cases a <;> rfl

/-- Entry `k` of row `i 0` of the left array. -/
abbrev rowAt (i : S100000x64.Idx) (k : Fin 64) : S100000x64.Idx := fun a => match a with
  | ⟨0, _⟩ => ⟨(i 0).val, (i 0).isLt⟩
  | ⟨1, _⟩ => ⟨k.val, k.isLt⟩
/-- Entry `k` of column `i 1` of the matrix. -/
abbrev colAt (i : S100000x64.Idx) (k : Fin 64) : S64x64.Idx := fun a => match a with
  | ⟨0, _⟩ => ⟨k.val, k.isLt⟩
  | ⟨1, _⟩ => ⟨(i 1).val, (i 1).isLt⟩

/-- The rows of `x` times the matrix `w`: element `i` is the sum over `k` of `x (i 0, k) · w (k, i 1)`. -/
def rowsTimes (x : S100000x64.Idx → EReal) (w : S64x64.Idx → EReal) : S100000x64.Idx → EReal :=
  fun i => ∑ k : Fin 64, x (rowAt i k) * w (colAt i k)

/-- The block-sized product's operand indices: row `y 0` of the block against column `y 1` of the matrix. -/
theorem lhs_0 (y : S4000x64.Idx) (q : dot_S4000x64_S64x64_S4000x64_1_0_0_1_n_n.contr.Idx) : (dot_S4000x64_S64x64_S4000x64_1_0_0_1_n_n.lhsIdx y q 0).val = (y 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
theorem lhs_1 (y : S4000x64.Idx) (q : dot_S4000x64_S64x64_S4000x64_1_0_0_1_n_n.contr.Idx) : (dot_S4000x64_S64x64_S4000x64_1_0_0_1_n_n.lhsIdx y q 1).val = (q ⟨0, by decide⟩).val :=
  dot_S4000x64_S64x64_S4000x64_1_0_0_1_n_n.lhsIdx_val_of_single rfl y q
theorem rhs_0 (y : S4000x64.Idx) (q : dot_S4000x64_S64x64_S4000x64_1_0_0_1_n_n.contr.Idx) : (dot_S4000x64_S64x64_S4000x64_1_0_0_1_n_n.rhsIdx y q 0).val = (q ⟨0, by decide⟩).val :=
  dot_S4000x64_S64x64_S4000x64_1_0_0_1_n_n.rhsIdx_val_of_single rfl y q
theorem rhs_1 (y : S4000x64.Idx) (q : dot_S4000x64_S64x64_S4000x64_1_0_0_1_n_n.contr.Idx) : (dot_S4000x64_S64x64_S4000x64_1_0_0_1_n_n.rhsIdx y q 1).val = (y 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- Entry `k` of row `y 0` of a block, and entry `k` of column `y 1` of the matrix. -/
abbrev brow (y : S4000x64.Idx) (k : Fin 64) : S4000x64.Idx := fun a => match a with
  | ⟨0, _⟩ => ⟨(y 0).val, (y 0).isLt⟩
  | ⟨1, _⟩ => ⟨k.val, k.isLt⟩
abbrev bcol (y : S4000x64.Idx) (k : Fin 64) : S64x64.Idx := fun a => match a with
  | ⟨0, _⟩ => ⟨k.val, k.isLt⟩
  | ⟨1, _⟩ => ⟨(y 1).val, (y 1).isLt⟩

/-- The body's arithmetic at element `y` of a block: the product into a zero accumulator is the plain sum over `k`. -/
theorem body_at (x0 : FVec Ideal S4000x64 .bf16) (x1 : FVec Ideal S64x64 .bf16) (y : S4000x64.Idx) :
    (k4_pay1 (F := Ideal) x0 x1 y : EReal) = ∑ k : Fin 64, (x0 (brow y k) : EReal) * (x1 (bcol y k) : EReal) := by
  unfold k4_pay1
  have e0 : shapeCast S4000x64 x0 shapeCasts_S4000x64_S4000x64 = x0 := shapeCast_self _ _
  have e1 : shapeCast S64x64 x1 shapeCasts_S64x64_S64x64 = x1 := shapeCast_self _ _
  show FloatOps.matmul dot_S4000x64_S64x64_S4000x64_1_0_0_1_n_n none (shapeCast S4000x64 x0 shapeCasts_S4000x64_S4000x64) (shapeCast S64x64 x1 shapeCasts_S64x64_S64x64) (constant S4000x64 .f32 0x00000000#32) y = _
  rw [e0, e1]
  refine (Ideal.matmul_constant_zero_apply dot_S4000x64_S64x64_S4000x64_1_0_0_1_n_n none x0 x1 y).trans ?_
  rw [← Equiv.sum_comp (contrEquiv1 dot_S4000x64_S64x64_S4000x64_1_0_0_1_n_n 64 rfl rfl).symm]
  refine Finset.sum_congr rfl fun k _ => ?_
  have hk := contrEquiv1_symm_val dot_S4000x64_S64x64_S4000x64_1_0_0_1_n_n 64 rfl rfl k
  have el : dot_S4000x64_S64x64_S4000x64_1_0_0_1_n_n.lhsIdx y ((contrEquiv1 dot_S4000x64_S64x64_S4000x64_1_0_0_1_n_n 64 rfl rfl).symm k) = brow y k := funext fun a => Fin.ext (by
    match a with
    | ⟨0, _⟩ => exact lhs_0 _ _
    | ⟨1, _⟩ => exact (lhs_1 _ _).trans hk)
  have er : dot_S4000x64_S64x64_S4000x64_1_0_0_1_n_n.rhsIdx y ((contrEquiv1 dot_S4000x64_S64x64_S4000x64_1_0_0_1_n_n 64 rfl rfl).symm k) = bcol y k := funext fun a => Fin.ext (by
    match a with
    | ⟨0, _⟩ => exact (rhs_0 _ _).trans hk
    | ⟨1, _⟩ => exact rhs_1 _ _)
  rw [el, er]

/-- The printed index maps over the 25 points: the row windows move one block of rows per point, the matrix window stays. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The row window's block at point `t` is rows `4000 t …` of the array the region finds. -/
theorem rows_apply (c : Dev nD) (t : Fin cfg4.N) (x : S4000x64.Idx) (k : S100000x64.Idx)
    (hk0 : (k 0).val = 4000 * t.val + (x 0).val) (hk1 : (k 1).val = (x 1).val) :
    (iblk4 V c 0 t : FVec Ideal S4000x64 .bf16) x = (V c main_v87 : S100000x64.Idx → EReal) k := by
  obtain ⟨e0, e1, -, -, -, -⟩ := idx_facts t
  unfold iblk4
  rw [View.read_apply]
  show V c main_v87 _ = V c main_v87 _
  refine congrArg (V c main_v87) (funext fun a => Fin.ext ?_)
  match a with
  | ⟨0, _⟩ => show win4_0.index t (0 : Fin 2) * 4000 + 1 * (x 0).val = (k 0).val; rw [e0, hk0]; omega
  | ⟨1, _⟩ => show win4_0.index t (1 : Fin 2) * 64 + 1 * (x 1).val = (k 1).val; rw [e1, hk1]; omega

/-- The matrix window's block at every point is the whole matrix. -/
theorem matrix_apply (c : Dev nD) (t : Fin cfg4.N) (x : S64x64.Idx) :
    (iblk4 V c 1 t : FVec Ideal S64x64 .bf16) x = (V c main_v88 : S64x64.Idx → EReal) x := by
  obtain ⟨-, -, e2, e3, -, -⟩ := idx_facts t
  unfold iblk4
  rw [View.read_apply]
  show V c main_v88 _ = V c main_v88 _
  refine congrArg (V c main_v88) (funext fun a => Fin.ext ?_)
  match a with
  | ⟨0, _⟩ => show win4_1.index t (0 : Fin 2) * 64 + 1 * (x 0).val = (x 0).val; rw [e2]; omega
  | ⟨1, _⟩ => show win4_1.index t (1 : Fin 2) * 64 + 1 * (x 1).val = (x 1).val; rw [e3]; omega

/-- What point `t` computes at element `y` of its block is `rowsTimes` of the entry arrays at row `4000 t + y 0`. -/
theorem point_at (c : Dev nD) (t : Fin cfg4.N) (y : S4000x64.Idx) (i : S100000x64.Idx)
    (h0 : (i 0).val = 4000 * t.val + (y 0).val) (h1 : (i 1).val = (y 1).val) :
    (k4_pay1 (F := Ideal) (iblk4 V c 0 t) (iblk4 V c 1 t) y : EReal) = rowsTimes (V c main_v87) (V c main_v88) i := by
  refine (body_at (iblk4 V c 0 t) (iblk4 V c 1 t) y).trans ?_
  unfold rowsTimes
  refine Finset.sum_congr rfl fun k _ => ?_
  rw [rows_apply V c t (brow y k) (rowAt i k) h0 rfl, matrix_apply V c t (bcol y k)]
  have ec : (bcol y k : S64x64.Idx) = colAt i k := funext fun a => Fin.ext (by
    match a with
    | ⟨0, _⟩ => rfl
    | ⟨1, _⟩ => exact h1.symm)
  rw [ec]

/-- What point `t` writes back is block `t` of `rowsTimes` of the entry arrays. -/
theorem flushed_eq (c : Dev nD) (t : Fin cfg4.N) :
    (dat4 V c).flushed 2 t = ((cfg4.win 2).blk t).view.read (Elt Ideal) (rowsTimes (V c main_v87) (V c main_v88)) := by
  show (cfg4.win 2).cut (grid4.coords t) ((dat4 V c).after 2 t) = _
  rw [after4_2]
  unfold out4_2
  rw [View.canon_unit_zero zero2]
  simp only [View.ld_unit_zero (S := S4000x64) zero2, View.ld_unit_zero (S := S64x64) zero2]
  obtain ⟨-, -, -, -, e4, e5⟩ := idx_facts t
  funext j
  show (k4_pay1 (F := Ideal) (iblk4 V c 0 t) (iblk4 V c 1 t) j : EReal) = rowsTimes (V c main_v87) (V c main_v88) (((cfg4.win 2).blk t).view.emb j)
  refine point_at V c t j _ ?_ ?_
  · show win4_2.index t (0 : Fin 2) * 4000 + 1 * (j 0).val = 4000 * t.val + (j 0).val; rw [e4]; omega
  · show win4_2.index t (1 : Fin 2) * 64 + 1 * (j 1).val = (j 1).val; rw [e5]; omega

/-- An index of the output array is in point `t`'s block iff each coordinate is in the block's range. -/
theorem mem_blk (t : Fin cfg4.N) (i : S100000x64.Idx) :
    i ∈ ((cfg4.win 2).blk t).view.set ↔ ∀ a : Fin 2, win4_2.index t a * S4000x64.size a ≤ (i a).val ∧ (i a).val < win4_2.index t a * S4000x64.size a + S4000x64.size a := by
  show i ∈ ((View.whole main_v89).slice (win4_2.rect t)).set ↔ _
  rw [View.set_slice_whole, Rect.mem_set_unit]
  exact Iff.rfl

/-- Row `r` is written by point `r / 4000`. -/
theorem covered (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 25 := N_4
  obtain ⟨t, ht⟩ : ∃ t : Fin cfg4.N, t.val = (i 0).val / 4000 := ⟨⟨(i 0).val / 4000, by rw [hN]; omega⟩, rfl⟩
  obtain ⟨-, -, -, -, e4, e5⟩ := idx_facts t
  refine ⟨t, flush4_2 t, ?_⟩
  rw [mem_blk]
  intro a
  match a with
  | ⟨0, _⟩ => show win4_2.index t (0 : Fin 2) * 4000 ≤ (i 0).val ∧ (i 0).val < win4_2.index t (0 : Fin 2) * 4000 + 4000; rw [e4, ht]; omega
  | ⟨1, _⟩ => show win4_2.index t (1 : Fin 2) * 64 ≤ (i 1).val ∧ (i 1).val < win4_2.index t (1 : Fin 2) * 64 + 64; rw [e5]; omega

/-- The region's output array after the last point. -/
theorem final (c : Dev nD) : (dat4 V c).arrAt 2 cfg4.N = rowsTimes (V c main_v87) (V c main_v88) :=
  (dat4 V c).arrAt_eq_of_cover 2 (rowsTimes (V c main_v87) (V c main_v88)) (fun t _ => flushed_eq V c t) (covered)

end Cert.KernelIdeal.Reg4

end
-- ==== Proof.Reg5.lean ====
/-
  Region 5 of the kernel's program adds one row of 64 biases to every row of a [100000, 64] array,
  4000 rows per grid point over 25 points. This module reads the region's output array after the last point as ONE
  function of the two arrays the region finds on entry: element (r, c) is a (r, c) + b (0, c).
  Point t's block is rows 4000·t … 4000·t + 3999 of that function, and row r lies in the block of point r / 4000,
  so the 25 blocks cover the array.
-/
import proofs.«164255_j4105988735685_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg5

open Cert.KernelIdeal Cert.KernelIdeal.Gen

variable (V : (c : Dev nD) → (b : Ref sig .tc) → Buf (Elt Ideal) ((c : Thread nD τ).loc b))

theorem zero2 : (![0, 0] : Fin 2 → Nat) = fun _ => 0 := funext fun a => by fin_cases a <;> rfl

/-- The bias row's entry under column `i 1`. -/
abbrev under (i : S100000x64.Idx) : S1x64.Idx := fun a => match a with
  | ⟨0, _⟩ => ⟨0, Nat.one_pos⟩
  | ⟨1, _⟩ => ⟨(i 1).val, (i 1).isLt⟩

/-- Every row of `a` plus the row `b`. -/
def rowBias (a : S100000x64.Idx → EReal) (b : S1x64.Idx → EReal) : S100000x64.Idx → EReal :=
  fun i => a i + b (under i)

/-- The body's arithmetic at row `p`, column `q` of a block. -/
theorem body_at (x0 : FVec Ideal S4000x64 .f32) (x1 : FVec Ideal S1x64 .f32) (p : Fin 4000) (q : Fin 64) :
    k5_pay1 x0 x1 (ix2 p q) = x0 (ix2 p q) + x1 (ix2 (0 : Fin 1) q) := by
  unfold k5_pay1
  have e0 : shapeCast S4000x64 x0 shapeCasts_S4000x64_S4000x64 = x0 := shapeCast_self _ _
  have e1 : shapeCast S1x64 x1 shapeCasts_S1x64_S1x64 = x1 := shapeCast_self _ _
  have eb : broadcastTo S4000x64 x1 broadcasts_S1x64_S4000x64 (ix2 p q) = x1 (ix2 (0 : Fin 1) q) :=
    broadcastTo_1b_ab_apply x1 broadcasts_S1x64_S4000x64 p q
  show shapeCast S4000x64 x0 shapeCasts_S4000x64_S4000x64 (ix2 p q)
      + broadcastTo S4000x64 (shapeCast S1x64 x1 shapeCasts_S1x64_S1x64) broadcasts_S1x64_S4000x64 (ix2 p q) = _
  rw [e0, e1, eb]

/-- The printed index maps over the 25 points: the array windows move one block of rows per point, the bias window stays. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The array window's block at point `t` is rows `4000 t …` of the array the region finds. -/
theorem rows_apply (c : Dev nD) (t : Fin cfg5.N) (x : S4000x64.Idx) (k : S100000x64.Idx)
    (hk0 : (k 0).val = 4000 * t.val + (x 0).val) (hk1 : (k 1).val = (x 1).val) :
    (iblk5 V c 0 t : FVec Ideal S4000x64 .f32) x = (V c main_v122 : S100000x64.Idx → EReal) k := by
  obtain ⟨e0, e1, -, -, -, -⟩ := idx_facts t
  unfold iblk5
  rw [View.read_apply]
  show V c main_v122 _ = V c main_v122 _
  refine congrArg (V c main_v122) (funext fun a => Fin.ext ?_)
  match a with
  | ⟨0, _⟩ => show win5_0.index t (0 : Fin 2) * 4000 + 1 * (x 0).val = (k 0).val; rw [e0, hk0]; omega
  | ⟨1, _⟩ => show win5_0.index t (1 : Fin 2) * 64 + 1 * (x 1).val = (k 1).val; rw [e1, hk1]; omega

/-- The bias window's block at every point is the whole bias row. -/
theorem bias_apply (c : Dev nD) (t : Fin cfg5.N) (x : S1x64.Idx) :
    (iblk5 V c 1 t : FVec Ideal S1x64 .f32) x = (V c main_v123 : S1x64.Idx → EReal) x := by
  obtain ⟨-, -, e2, e3, -, -⟩ := idx_facts t
  unfold iblk5
  rw [View.read_apply]
  show V c main_v123 _ = V c main_v123 _
  refine congrArg (V c main_v123) (funext fun a => Fin.ext ?_)
  match a with
  | ⟨0, _⟩ => show win5_1.index t (0 : Fin 2) * 1 + 1 * (x 0).val = (x 0).val; rw [e2]; omega
  | ⟨1, _⟩ => show win5_1.index t (1 : Fin 2) * 64 + 1 * (x 1).val = (x 1).val; rw [e3]; omega

/-- What point `t` computes at element `y` of its block is `rowBias` of the entry arrays at row `4000 t + y 0`. -/
theorem point_at (c : Dev nD) (t : Fin cfg5.N) (y : S4000x64.Idx) (i : S100000x64.Idx)
    (h0 : (i 0).val = 4000 * t.val + (y 0).val) (h1 : (i 1).val = (y 1).val) :
    k5_pay1 (iblk5 V c 0 t) (iblk5 V c 1 t) y = rowBias (V c main_v122) (V c main_v123) i := by
  obtain ⟨p, q, rfl⟩ : ∃ (p : Fin 4000) (q : Fin 64), y = ix2 p q := ⟨y 0, y 1, eq_ix2 y⟩
  refine (body_at (iblk5 V c 0 t) (iblk5 V c 1 t) p q).trans ?_
  rw [rows_apply V c t (ix2 p q) i h0 h1, bias_apply V c t (ix2 (0 : Fin 1) q)]
  unfold rowBias
  have eu : (ix2 (0 : Fin 1) q : S1x64.Idx) = under i := funext fun a => Fin.ext (by
    match a with
    | ⟨0, _⟩ => rfl
    | ⟨1, _⟩ => exact h1.symm)
  rw [eu]

/-- What point `t` writes back is block `t` of `rowBias` of the entry arrays. -/
theorem flushed_eq (c : Dev nD) (t : Fin cfg5.N) :
    (dat5 V c).flushed 2 t = ((cfg5.win 2).blk t).view.read (Elt Ideal) (rowBias (V c main_v122) (V c main_v123)) := by
  show (cfg5.win 2).cut (grid5.coords t) ((dat5 V c).after 2 t) = _
  rw [after5_2]
  unfold out5_2
  rw [View.canon_unit_zero zero2]
  simp only [View.ld_unit_zero (S := S4000x64) zero2, View.ld_unit_zero (S := S1x64) zero2]
  obtain ⟨-, -, -, -, e4, e5⟩ := idx_facts t
  funext j
  show k5_pay1 (iblk5 V c 0 t) (iblk5 V c 1 t) j = rowBias (V c main_v122) (V c main_v123) (((cfg5.win 2).blk t).view.emb j)
  refine point_at V c t j _ ?_ ?_
  · show win5_2.index t (0 : Fin 2) * 4000 + 1 * (j 0).val = 4000 * t.val + (j 0).val; rw [e4]; omega
  · show win5_2.index t (1 : Fin 2) * 64 + 1 * (j 1).val = (j 1).val; rw [e5]; omega

/-- An index of the output array is in point `t`'s block iff each coordinate is in the block's range. -/
theorem mem_blk (t : Fin cfg5.N) (i : S100000x64.Idx) :
    i ∈ ((cfg5.win 2).blk t).view.set ↔ ∀ a : Fin 2, win5_2.index t a * S4000x64.size a ≤ (i a).val ∧ (i a).val < win5_2.index t a * S4000x64.size a + S4000x64.size a := by
  show i ∈ ((View.whole main_v124).slice (win5_2.rect t)).set ↔ _
  rw [View.set_slice_whole, Rect.mem_set_unit]
  exact Iff.rfl

/-- Row `r` is written by point `r / 4000`. -/
theorem covered (i : S100000x64.Idx) : ∃ t : Fin cfg5.N, (cfg5.win 2).flush t = true ∧ i ∈ ((cfg5.win 2).blk t).view.set := by
  have hi0 : (i 0).val < 100000 := (i 0).isLt
  have hi1 : (i 1).val < 64 := (i 1).isLt
  have hN : cfg5.N = 25 := N_5
  obtain ⟨t, ht⟩ : ∃ t : Fin cfg5.N, t.val = (i 0).val / 4000 := ⟨⟨(i 0).val / 4000, by rw [hN]; omega⟩, rfl⟩
  obtain ⟨-, -, -, -, e4, e5⟩ := idx_facts t
  refine ⟨t, flush5_2 t, ?_⟩
  rw [mem_blk]
  intro a
  match a with
  | ⟨0, _⟩ => show win5_2.index t (0 : Fin 2) * 4000 ≤ (i 0).val ∧ (i 0).val < win5_2.index t (0 : Fin 2) * 4000 + 4000; rw [e4, ht]; omega
  | ⟨1, _⟩ => show win5_2.index t (1 : Fin 2) * 64 ≤ (i 1).val ∧ (i 1).val < win5_2.index t (1 : Fin 2) * 64 + 64; rw [e5]; omega

/-- The region's output array after the last point. -/
theorem final (c : Dev nD) : (dat5 V c).arrAt 2 cfg5.N = rowBias (V c main_v122) (V c main_v123) :=
  (dat5 V c).arrAt_eq_of_cover 2 (rowBias (V c main_v122) (V c main_v123)) (fun t _ => flushed_eq V c t) (covered)

end Cert.KernelIdeal.Reg5

end
-- ==== Proof.Forms.lean ====
/-
  What each pipelined region of the kernel's program leaves in its output array — a sum over `k` of products for the
  three matrix products, a row plus the bias row (clamped at zero in layers 1 and 2) for the three bias passes — is, as
  a function of the arrays the region finds, the reference program's stage of the same layer: the reference contracts
  the same two operands over the same axis, adds the same bias entry to every row, and its ReLU is the maximum with zero.
-/
import proofs.«164255_j4105988735685_1_alg».proof.Proof.Reg0
import proofs.«164255_j4105988735685_1_alg».proof.Proof.Reg1
import proofs.«164255_j4105988735685_1_alg».proof.Proof.Reg2
import proofs.«164255_j4105988735685_1_alg».proof.Proof.Reg3
import proofs.«164255_j4105988735685_1_alg».proof.Proof.Reg4
import proofs.«164255_j4105988735685_1_alg».proof.Proof.Reg5
import proofs.«164255_j4105988735685_1_alg».proof.Proof.Gen.ReferenceIdeal.Read

set_option maxRecDepth 16384

noncomputable section

open Idealize.ShloMosaic Idealize.ShloMosaic.TcCoe Idealize.SL.Sem Idealize.ShloMosaic.ValueIdx

namespace Cert.KernelIdeal.Forms

open Cert.KernelIdeal Cert.KernelIdeal.Gen Cert.ReferenceIdeal.Read

variable (x0 : (⟨Cert.ReferenceIdeal.S100000x128, .f32⟩ : BufTy).Contents (Elt Ideal)) (x1 : (⟨Cert.ReferenceIdeal.S2x1600000, .i32⟩ : BufTy).Contents (Elt Ideal))
  (x2 : (⟨Cert.ReferenceIdeal.S100000, .i32⟩ : BufTy).Contents (Elt Ideal)) (x3 : (⟨Cert.ReferenceIdeal.S128x64, .f32⟩ : BufTy).Contents (Elt Ideal))
  (x4 : (⟨Cert.ReferenceIdeal.S64, .f32⟩ : BufTy).Contents (Elt Ideal)) (x5 : (⟨Cert.ReferenceIdeal.S64x64, .f32⟩ : BufTy).Contents (Elt Ideal))
  (x6 : (⟨Cert.ReferenceIdeal.S64, .f32⟩ : BufTy).Contents (Elt Ideal)) (x7 : (⟨Cert.ReferenceIdeal.S64x64, .f32⟩ : BufTy).Contents (Elt Ideal))
  (x8 : (⟨Cert.ReferenceIdeal.S64, .f32⟩ : BufTy).Contents (Elt Ideal)) (x9 : (⟨Cert.ReferenceIdeal.S64x1, .f32⟩ : BufTy).Contents (Elt Ideal))
  (x10 : (⟨Cert.ReferenceIdeal.S1, .f32⟩ : BufTy).Contents (Elt Ideal))

/-- Layer 1's product: the region's sum over `k` is the reference's contraction over `k`. -/
theorem prod1 : Reg0.rowsTimes (x0) x3 = val_main_v11 (F := Ideal) x0 x3 := by
  funext i
  rw [val_main_v11_apply]
  unfold Reg0.rowsTimes
  refine Finset.sum_congr rfl fun k _ => ?_
  have el : Reg0.rowAt i k = lidx_main_v11 i k := funext fun a => by
    match a with
    | ⟨0, _⟩ => rfl
    | ⟨1, _⟩ => rfl
  have er : Reg0.colAt i k = ridx_main_v11 i k := funext fun a => by
    match a with
    | ⟨0, _⟩ => rfl
    | ⟨1, _⟩ => rfl
  rw [el, er]

/-- Layer 1's bias pass: the one-row bias under column `i 1` is entry `i 1` of the bias vector, and the clamp is the reference's maximum with zero. -/
theorem bias1 : Reg1.rowBias (val_main_v44 (F := Ideal) x0 x1 x3) (shapeCast S1x64 x4 shapeCasts_S64_S1x64) = val_main_v48 (F := Ideal) x0 x1 x3 x4 := by
  funext i
  rw [val_main_v48_apply, val_main_v47_apply, val_main_v46_apply, val_main_v45_apply, val_main_call0_v0_apply, val_main_call0_cst_apply]
  unfold Reg1.rowBias
  have eu : Reg1.under i = ix2 (0 : Fin 1) (⟨(i 1).val, (i 1).isLt⟩ : Fin 64) := funext fun a => by
    match a with
    | ⟨0, _⟩ => rfl
    | ⟨1, _⟩ => rfl
  have eb : shapeCast S1x64 x4 shapeCasts_S64_S1x64 (Reg1.under i) = x4 (idx_main_v45 (idx_main_v46 i)) := by
    rw [eu]
    refine (shapeCast_a_1a_apply x4 shapeCasts_S64_S1x64 (0 : Fin 1) (⟨(i 1).val, (i 1).isLt⟩ : Fin 64)).trans (congrArg x4 (funext fun a => ?_))
    match a with
    | ⟨0, _⟩ => rfl
  rw [eb]
  rfl

/-- Layer 2's product: the region's sum over `k` is the reference's contraction over `k`. -/
theorem prod2 : Reg2.rowsTimes (val_main_v48 (F := Ideal) x0 x1 x3 x4) x5 = val_main_v49 (F := Ideal) x0 x1 x3 x4 x5 := by
  funext i
  rw [val_main_v49_apply]
  unfold Reg2.rowsTimes
  refine Finset.sum_congr rfl fun k _ => ?_
  have el : Reg2.rowAt i k = lidx_main_v49 i k := funext fun a => by
    match a with
    | ⟨0, _⟩ => rfl
    | ⟨1, _⟩ => rfl
  have er : Reg2.colAt i k = ridx_main_v49 i k := funext fun a => by
    match a with
    | ⟨0, _⟩ => rfl
    | ⟨1, _⟩ => rfl
  rw [el, er]

/-- Layer 2's bias pass: the one-row bias under column `i 1` is entry `i 1` of the bias vector, and the clamp is the reference's maximum with zero. -/
theorem bias2 : Reg3.rowBias (val_main_v82 (F := Ideal) x0 x1 x3 x4 x5) (shapeCast S1x64 x6 shapeCasts_S64_S1x64) = val_main_v86 (F := Ideal) x0 x1 x3 x4 x5 x6 := by
  funext i
  rw [val_main_v86_apply, val_main_v85_apply, val_main_v84_apply, val_main_v83_apply, val_main_call1_v0_apply, val_main_call1_cst_apply]
  unfold Reg3.rowBias
  have eu : Reg3.under i = ix2 (0 : Fin 1) (⟨(i 1).val, (i 1).isLt⟩ : Fin 64) := funext fun a => by
    match a with
    | ⟨0, _⟩ => rfl
    | ⟨1, _⟩ => rfl
  have eb : shapeCast S1x64 x6 shapeCasts_S64_S1x64 (Reg3.under i) = x6 (idx_main_v83 (idx_main_v84 i)) := by
    rw [eu]
    refine (shapeCast_a_1a_apply x6 shapeCasts_S64_S1x64 (0 : Fin 1) (⟨(i 1).val, (i 1).isLt⟩ : Fin 64)).trans (congrArg x6 (funext fun a => ?_))
    match a with
    | ⟨0, _⟩ => rfl
  rw [eb]
  rfl

/-- Layer 3's product: the region's sum over `k` is the reference's contraction over `k`. -/
theorem prod3 : Reg4.rowsTimes (val_main_v86 (F := Ideal) x0 x1 x3 x4 x5 x6) x7 = val_main_v87 (F := Ideal) x0 x1 x3 x4 x5 x6 x7 := by
  funext i
  rw [val_main_v87_apply]
  unfold Reg4.rowsTimes
  refine Finset.sum_congr rfl fun k _ => ?_
  have el : Reg4.rowAt i k = lidx_main_v87 i k := funext fun a => by
    match a with
    | ⟨0, _⟩ => rfl
    | ⟨1, _⟩ => rfl
  have er : Reg4.colAt i k = ridx_main_v87 i k := funext fun a => by
    match a with
    | ⟨0, _⟩ => rfl
    | ⟨1, _⟩ => rfl
  rw [el, er]

/-- Layer 3's bias pass: the one-row bias under column `i 1` is entry `i 1` of the bias vector. -/
theorem bias3 : Reg5.rowBias (val_main_v120 (F := Ideal) x0 x1 x3 x4 x5 x6 x7) (shapeCast S1x64 x8 shapeCasts_S64_S1x64) = val_main_v123 (F := Ideal) x0 x1 x3 x4 x5 x6 x7 x8 := by
  funext i
  rw [val_main_v123_apply, val_main_v122_apply, val_main_v121_apply]
  unfold Reg5.rowBias
  have eu : Reg5.under i = ix2 (0 : Fin 1) (⟨(i 1).val, (i 1).isLt⟩ : Fin 64) := funext fun a => by
    match a with
    | ⟨0, _⟩ => rfl
    | ⟨1, _⟩ => rfl
  have eb : shapeCast S1x64 x8 shapeCasts_S64_S1x64 (Reg5.under i) = x8 (idx_main_v121 (idx_main_v122 i)) := by
    rw [eu]
    refine (shapeCast_a_1a_apply x8 shapeCasts_S64_S1x64 (0 : Fin 1) (⟨(i 1).val, (i 1).isLt⟩ : Fin 64)).trans (congrArg x8 (funext fun a => ?_))
    match a with
    | ⟨0, _⟩ => rfl
  rw [eb]
  rfl

end Cert.KernelIdeal.Forms

end
-- ==== Proof.Chain.lean ====
/-
  The kernel's program, read segment by segment at the ideal instance. `Wk m ρ c` (k = 0 … 13) is what core `c`'s buffers
  hold at the k-th boundary between the seven host stretches and the six pipelined regions. Going down the program, every
  buffer a later segment reads is shown to hold the reference program's stage of the same meaning, as a function of the
  eleven argument arrays: the edge rows and reciprocal root degrees; then per layer the matrix product, the aggregation
  over edges, the bias pass; and at the end the pooled read-out, which is the reference's result. The casts to the matrix
  unit's input format are the identity on the extended reals, so no finiteness of the inputs is used anywhere.
-/
import proofs.«164255_j4105988735685_1_alg».proof.Proof.Gen.KernelIdeal.Frame
import proofs.«164255_j4105988735685_1_alg».proof.Proof.Gen.ReferenceIdeal.Read
import proofs.«164255_j4105988735685_1_alg».proof.Proof.Kept
import proofs.«164255_j4105988735685_1_alg».proof.Proof.Host0
import proofs.«164255_j4105988735685_1_alg».proof.Proof.HostAgg1
import proofs.«164255_j4105988735685_1_alg».proof.Proof.HostAgg2
import proofs.«164255_j4105988735685_1_alg».proof.Proof.HostAgg3
import proofs.«164255_j4105988735685_1_alg».proof.Proof.HostCast
import proofs.«164255_j4105988735685_1_alg».proof.Proof.HostTail
import proofs.«164255_j4105988735685_1_alg».proof.Proof.Forms

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen Cert.ReferenceIdeal.Read

variable (m : (ℓ : Loc nD τ sig) → Buf (Elt Ideal) ℓ) (ρ : Dev nD → PrngReg) (c : Dev nD)

/-! ## Buffers that keep their contents from boundary 1 on -/

theorem at2 {b : Ref sig .tc} (hb : b ∈ Kept.later) : W2 m ρ c (Proc.devRef .tc b) = W1 m ρ c (Proc.devRef .tc b) := W2_of_ne m ρ c b (Kept.region0 b hb)
theorem at3 {b : Ref sig .tc} (hb : b ∈ Kept.later) : W3 m ρ c (Proc.devRef .tc b) = W1 m ρ c (Proc.devRef .tc b) := (Kept.host1 (W2 m ρ c) b hb).trans (at2 m ρ c hb)
theorem at4 {b : Ref sig .tc} (hb : b ∈ Kept.later) : W4 m ρ c (Proc.devRef .tc b) = W1 m ρ c (Proc.devRef .tc b) := (W4_of_ne m ρ c b (Kept.region1 b hb)).trans (at3 m ρ c hb)
theorem at5 {b : Ref sig .tc} (hb : b ∈ Kept.later) : W5 m ρ c (Proc.devRef .tc b) = W1 m ρ c (Proc.devRef .tc b) := (Kept.host2 (W4 m ρ c) b hb).trans (at4 m ρ c hb)
theorem at6 {b : Ref sig .tc} (hb : b ∈ Kept.later) : W6 m ρ c (Proc.devRef .tc b) = W1 m ρ c (Proc.devRef .tc b) := (W6_of_ne m ρ c b (Kept.region2 b hb)).trans (at5 m ρ c hb)
theorem at7 {b : Ref sig .tc} (hb : b ∈ Kept.later) : W7 m ρ c (Proc.devRef .tc b) = W1 m ρ c (Proc.devRef .tc b) := (Kept.host3 (W6 m ρ c) b hb).trans (at6 m ρ c hb)
theorem at8 {b : Ref sig .tc} (hb : b ∈ Kept.later) : W8 m ρ c (Proc.devRef .tc b) = W1 m ρ c (Proc.devRef .tc b) := (W8_of_ne m ρ c b (Kept.region3 b hb)).trans (at7 m ρ c hb)
theorem at9 {b : Ref sig .tc} (hb : b ∈ Kept.later) : W9 m ρ c (Proc.devRef .tc b) = W1 m ρ c (Proc.devRef .tc b) := (Kept.host4 (W8 m ρ c) b hb).trans (at8 m ρ c hb)
theorem at10 {b : Ref sig .tc} (hb : b ∈ Kept.later) : W10 m ρ c (Proc.devRef .tc b) = W1 m ρ c (Proc.devRef .tc b) := (W10_of_ne m ρ c b (Kept.region4 b hb)).trans (at9 m ρ c hb)
theorem at11 {b : Ref sig .tc} (hb : b ∈ Kept.later) : W11 m ρ c (Proc.devRef .tc b) = W1 m ρ c (Proc.devRef .tc b) := (Kept.host5 (W10 m ρ c) b hb).trans (at10 m ρ c hb)
theorem at12 {b : Ref sig .tc} (hb : b ∈ Kept.later) : W12 m ρ c (Proc.devRef .tc b) = W1 m ρ c (Proc.devRef .tc b) := (W12_of_ne m ρ c b (Kept.region5 b hb)).trans (at11 m ρ c hb)

/-- An argument at boundary 1 holds what it held at launch. -/
theorem arg1 {b : Ref sig .tc} (hb : b ∈ Kept.args) : W1 m ρ c (Proc.devRef .tc b) = W0 m ρ c (Proc.devRef .tc b) :=
  Kept.host0 (W0 m ρ c) b hb

/-! ## Boundary 1: the edge rows and the reciprocal root degrees -/

theorem src1 : W1 m ρ c (Proc.devRef .tc main_v1) = val_main_v1 (F := Ideal) (m ((c : Thread nD τ).loc main_arg1)) := Host0.src (W0 m ρ c) (m ((c : Thread nD τ).loc main_arg1)) rfl
theorem dst1 : W1 m ρ c (Proc.devRef .tc main_v3) = val_main_v3 (F := Ideal) (m ((c : Thread nD τ).loc main_arg1)) := Host0.dst (W0 m ρ c) (m ((c : Thread nD τ).loc main_arg1)) rfl
theorem dis1 : W1 m ρ c (Proc.devRef .tc main_v10) = val_main_v10 (F := Ideal) (m ((c : Thread nD τ).loc main_arg1)) := Host0.dis (W0 m ρ c) (m ((c : Thread nD τ).loc main_arg1)) rfl

/-! ## Layer 1 -/

theorem xw1 : W2 m ρ c (Proc.devRef .tc main_v13) = val_main_v11 (F := Ideal) (m ((c : Thread nD τ).loc main_arg0)) (m ((c : Thread nD τ).loc main_arg3)) :=
  (W2_arr m ρ c 2).trans ((Reg0.final (V1 m ρ) c).trans (by
    rw [show (V1 m ρ c main_v11 : S100000x128.Idx → EReal) = (m ((c : Thread nD τ).loc main_arg0)) from Host0.feat (W0 m ρ c) (m ((c : Thread nD τ).loc main_arg0)) rfl,
      show (V1 m ρ c main_v12 : S128x64.Idx → EReal) = (m ((c : Thread nD τ).loc main_arg3)) from Host0.weight (W0 m ρ c) (m ((c : Thread nD τ).loc main_arg3)) rfl]
    exact Forms.prod1 (m ((c : Thread nD τ).loc main_arg0)) (m ((c : Thread nD τ).loc main_arg3))))

theorem agg1 : V3 m ρ c main_v46 = val_main_v44 (F := Ideal) (m ((c : Thread nD τ).loc main_arg0)) (m ((c : Thread nD τ).loc main_arg1)) (m ((c : Thread nD τ).loc main_arg3)) :=
  HostAgg1.agg (W2 m ρ c) (m ((c : Thread nD τ).loc main_arg0)) (m ((c : Thread nD τ).loc main_arg1)) (m ((c : Thread nD τ).loc main_arg3)) (xw1 m ρ c)
    ((at2 m ρ c (by decide)).trans (src1 m ρ c)) ((at2 m ρ c (by decide)).trans (dst1 m ρ c)) ((at2 m ρ c (by decide)).trans (dis1 m ρ c))

theorem row1 : V3 m ρ c main_v47 = shapeCast S1x64 (m ((c : Thread nD τ).loc main_arg4)) shapeCasts_S64_S1x64 :=
  HostAgg1.biasRow (W2 m ρ c) (m ((c : Thread nD τ).loc main_arg4)) (((at2 m ρ c (by decide)).trans (arg1 m ρ c (by decide))).trans rfl)

theorem act1 : W4 m ρ c (Proc.devRef .tc main_v48) = val_main_v48 (F := Ideal) (m ((c : Thread nD τ).loc main_arg0)) (m ((c : Thread nD τ).loc main_arg1)) (m ((c : Thread nD τ).loc main_arg3)) (m ((c : Thread nD τ).loc main_arg4)) :=
  (W4_arr m ρ c 2).trans ((Reg1.final (V3 m ρ) c).trans (by
    rw [agg1 m ρ c, row1 m ρ c]
    exact Forms.bias1 (m ((c : Thread nD τ).loc main_arg0)) (m ((c : Thread nD τ).loc main_arg1)) (m ((c : Thread nD τ).loc main_arg3)) (m ((c : Thread nD τ).loc main_arg4))))

/-! ## Layer 2 -/

theorem in2 : (V5 m ρ c main_v49 : S100000x64.Idx → EReal) = val_main_v48 (F := Ideal) (m ((c : Thread nD τ).loc main_arg0)) (m ((c : Thread nD τ).loc main_arg1)) (m ((c : Thread nD τ).loc main_arg3)) (m ((c : Thread nD τ).loc main_arg4)) :=
  HostCast.act2 (W4 m ρ c) _ (act1 m ρ c)
theorem mat2 : (V5 m ρ c main_v50 : S64x64.Idx → EReal) = (m ((c : Thread nD τ).loc main_arg5)) :=
  HostCast.weight2 (W4 m ρ c) (m ((c : Thread nD τ).loc main_arg5)) (((at4 m ρ c (by decide)).trans (arg1 m ρ c (by decide))).trans rfl)

theorem xw2 : W6 m ρ c (Proc.devRef .tc main_v51) = val_main_v49 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  (W6_arr m ρ c 2).trans ((Reg2.final (V5 m ρ) c).trans (by
    rw [in2 m ρ c, mat2 m ρ c]
    exact Forms.prod2 (m ((c : Thread nD τ).loc main_arg0)) (m ((c : Thread nD τ).loc main_arg1)) (m ((c : Thread nD τ).loc main_arg3)) (m ((c : Thread nD τ).loc main_arg4)) (m ((c : Thread nD τ).loc main_arg5))))

theorem agg2 : V7 m ρ c main_v84 = val_main_v82 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  HostAgg2.agg (W6 m ρ c) (m ((c : Thread nD τ).loc main_arg0)) (m ((c : Thread nD τ).loc main_arg1)) (m ((c : Thread nD τ).loc main_arg3)) (m ((c : Thread nD τ).loc main_arg4)) (m ((c : Thread nD τ).loc main_arg5)) (xw2 m ρ c)
    ((at6 m ρ c (by decide)).trans (src1 m ρ c)) ((at6 m ρ c (by decide)).trans (dst1 m ρ c)) ((at6 m ρ c (by decide)).trans (dis1 m ρ c))

theorem row2 : V7 m ρ c main_v85 = shapeCast S1x64 (m ((c : Thread nD τ).loc main_arg6)) shapeCasts_S64_S1x64 :=
  HostAgg2.biasRow (W6 m ρ c) (m ((c : Thread nD τ).loc main_arg6)) (((at6 m ρ c (by decide)).trans (arg1 m ρ c (by decide))).trans rfl)

theorem act2 : W8 m ρ c (Proc.devRef .tc main_v86) = val_main_v86 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W8_arr m ρ c 2).trans ((Reg3.final (V7 m ρ) c).trans (by
    rw [agg2 m ρ c, row2 m ρ c]
    exact Forms.bias2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))))

/-! ## Layer 3 -/

theorem in3 : (V9 m ρ c main_v87 : S100000x64.Idx → EReal) = val_main_v86 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  HostCast.act3 (W8 m ρ c) _ (act2 m ρ c)
theorem mat3 : (V9 m ρ c main_v88 : S64x64.Idx → EReal) = (m ((c : Thread nD τ).loc main_arg7)) :=
  HostCast.weight3 (W8 m ρ c) (m ((c : Thread nD τ).loc main_arg7)) (((at8 m ρ c (by decide)).trans (arg1 m ρ c (by decide))).trans rfl)

theorem xw3 : W10 m ρ c (Proc.devRef .tc main_v89) = val_main_v87 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  (W10_arr m ρ c 2).trans ((Reg4.final (V9 m ρ) c).trans (by
    rw [in3 m ρ c, mat3 m ρ c]
    exact Forms.prod3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))))

theorem agg3 : V11 m ρ c main_v122 = val_main_v120 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  HostAgg3.agg (W10 m ρ c) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (xw3 m ρ c)
    ((at10 m ρ c (by decide)).trans (src1 m ρ c)) ((at10 m ρ c (by decide)).trans (dst1 m ρ c)) ((at10 m ρ c (by decide)).trans (dis1 m ρ c))

theorem row3 : V11 m ρ c main_v123 = shapeCast S1x64 (m ((c : Thread nD τ).loc main_arg8)) shapeCasts_S64_S1x64 :=
  HostAgg3.biasRow (W10 m ρ c) (m ((c : Thread nD τ).loc main_arg8)) (((at10 m ρ c (by decide)).trans (arg1 m ρ c (by decide))).trans rfl)

theorem act3 : W12 m ρ c (Proc.devRef .tc main_v124) = val_main_v123 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W12_arr m ρ c 2).trans ((Reg5.final (V11 m ρ) c).trans (by
    rw [agg3 m ρ c, row3 m ρ c]
    exact Forms.bias3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))))

/-! ## The result -/

/-- At the return the result buffer holds the reference program's result stage of the launch contents of the arguments. -/
theorem result : W13 m ρ c (Proc.devRef .tc main_v140) = val_main_v139 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  HostTail.result (W12 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (act3 m ρ c)
    (((at12 m ρ c (by decide)).trans (arg1 m ρ c (by decide))).trans rfl)
    (((at12 m ρ c (by decide)).trans (arg1 m ρ c (by decide))).trans rfl)
    (((at12 m ρ c (by decide)).trans (arg1 m ρ c (by decide))).trans rfl)

end Cert.KernelIdeal.Chain

end
-- ==== Proof.lean ====
/-
  A three-layer graph convolution over 100000 nodes and 1600000 edges with mean pooling into 1024 graphs and a one-column
  read-out: a kernel program against its plain reference, equal as extended reals.

  Both programs compute, per layer, h ↦ D^(-1/2) (A + I) D^(-1/2) (h · W) + b (then max with 0 in layers 1 and 2), where the
  degrees D count each node's incoming edges plus one. They differ only in where the dense parts run. The kernel program
  computes each product h · W in a pipelined region, 4000 rows per grid point into a zero accumulator, after casting both
  operands to the matrix unit's input format; and it adds the bias (and clamps) in a second pipelined region, 4000 rows
  per point against the bias re-laid as one row. The reference contracts the same operands in one host operation and
  adds a broadcast bias. On the extended reals the casts are the identity, a product into a zero accumulator is the plain
  sum over the contracted axis, and the 25 blocks of rows tile the array; so each region's output array is the
  reference's stage of the same layer (modules Reg0 … Reg5 and Forms). Everything between the regions — the gather of
  source rows, the scaling by the endpoints' reciprocal root degrees, the scatter-add per destination, the self-loop
  term, and the pooled read-out at the end — is the same sequence of host operations in both programs and is carried
  through unopened (modules Host0, HostAgg1 … 3, HostCast, HostTail). Chain follows the kernel program's thirteen segments
  from launch to return and ends at the reference's result stage of the arguments; WholeRun is the program's run with the
  result buffer read. No law that needs finite inputs is used: the precondition is never opened.
-/
import proofs.«164255_j4105988735685_1_alg».proof.Defs
import proofs.«164255_j4105988735685_1_alg».proof.Proof.Gen.Kernel
import proofs.«164255_j4105988735685_1_alg».proof.Proof.Gen.Kernel.Skeleton
import proofs.«164255_j4105988735685_1_alg».proof.Proof.Gen.Kernel.Launch
import proofs.«164255_j4105988735685_1_alg».proof.Proof.Gen.Kernel.Points
import proofs.«164255_j4105988735685_1_alg».proof.Proof.Gen.Kernel.Frame
import proofs.«164255_j4105988735685_1_alg».proof.Proof.Gen.KernelIdeal
import proofs.«164255_j4105988735685_1_alg».proof.Proof.Gen.KernelIdeal.Skeleton
import proofs.«164255_j4105988735685_1_alg».proof.Proof.Gen.KernelIdeal.Launch
import proofs.«164255_j4105988735685_1_alg».proof.Proof.Gen.KernelIdeal.Points
import proofs.«164255_j4105988735685_1_alg».proof.Proof.Gen.KernelIdeal.Frame
import proofs.«164255_j4105988735685_1_alg».proof.Proof.Gen.ReferenceIdeal
import proofs.«164255_j4105988735685_1_alg».proof.Proof.Gen.Pre_finite_inputs
import proofs.«164255_j4105988735685_1_alg».proof.Proof.Gen.ReferenceIdeal.Run
import proofs.«164255_j4105988735685_1_alg».proof.Proof.Gen.ReferenceIdeal.Read
import proofs.«164255_j4105988735685_1_alg».proof.Proof.WholeRun
import proofs.«164255_j4105988735685_1_alg».proof.Proof.Chain
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the reference's result stage of those arguments. -/
theorem algebraic : Cert.algebraic_KernelIdeal_ReferenceIdeal := by
  intro m ρ m' ρ' _ hagree
  refine ⟨fun c => Cert.ReferenceIdeal.Read.val_main_v139 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Chain.result m ρ c), (h c).2⟩)
      (Cert.KernelIdeal.Whole.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10⟩ := hagree c
    rw [Cert.ReferenceIdeal.Read.val_main_v139_eq, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
